-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : IVec S2x200000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 106
  | .vmem => 31
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S2x200000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S_, .i32⟩
  | .hbm, ⟨19, _⟩ => ⟨S50000, .i32⟩
  | .hbm, ⟨20, _⟩ => ⟨S800000x1, .i32⟩
  | .hbm, ⟨21, _⟩ => ⟨S50000, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x1, .f32⟩
  | .hbm, ⟨77, _⟩ => ⟨S50000x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S1x200000, .i32⟩
  | .hbm, ⟨82, _⟩ => ⟨S200000, .i32⟩
  | .hbm, ⟨83, _⟩ => ⟨S1x200000, .i32⟩
  | .hbm, ⟨84, _⟩ => ⟨S200000, .i32⟩
  | .hbm, ⟨85, _⟩ => ⟨S_, .i32⟩
  | .hbm, ⟨86, _⟩ => ⟨S200000, .i32⟩
  | .hbm, ⟨87, _⟩ => ⟨S200000, .i1⟩
  | .hbm, ⟨88, _⟩ => ⟨S_, .i32⟩
  | .hbm, ⟨89, _⟩ => ⟨S200000, .i32⟩
  | .hbm, ⟨90, _⟩ => ⟨S200000, .i32⟩
  | .hbm, ⟨91, _⟩ => ⟨S200000, .i32⟩
  | .hbm, ⟨92, _⟩ => ⟨S200000x1, .i32⟩
  | .hbm, ⟨93, _⟩ => ⟨S200000x64, .f32⟩
  | .hbm, ⟨94, _⟩ => ⟨S_, .i32⟩
  | .hbm, ⟨95, _⟩ => ⟨S200000, .i32⟩
  | .hbm, ⟨96, _⟩ => ⟨S200000, .i1⟩
  | .hbm, ⟨97, _⟩ => ⟨S_, .i32⟩
  | .hbm, ⟨98, _⟩ => ⟨S200000, .i32⟩
  | .hbm, ⟨99, _⟩ => ⟨S200000, .i32⟩
  | .hbm, ⟨100, _⟩ => ⟨S200000, .i32⟩
  | .hbm, ⟨101, _⟩ => ⟨S200000x1, .i32⟩
  | .hbm, ⟨102, _⟩ => ⟨S200000x64, .f32⟩
  | .hbm, ⟨103, _⟩ => ⟨S200000x64, .f32⟩
  | .hbm, ⟨104, _⟩ => ⟨S_, .f32⟩
  | .hbm, ⟨105, _⟩ => ⟨S200000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x128, .f32⟩
  | .local _ .vmem, ⟨26, _⟩ => ⟨S5000x128, .f32⟩
  | .local _ .vmem, ⟨27, _⟩ => ⟨S128x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x800000, .i32⟩
  | 2 => ⟨S2x200000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x64, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S1x200000, .i32⟩
  | 116 => ⟨S200000, .i32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x64, .f32⟩
  | 126 => ⟨S1x200000, .i32⟩
  | 127 => ⟨S200000, .i32⟩
  | _ => ⟨S50000x64, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x64, .f32⟩
  | 9 => ⟨S200000x64, .f32⟩
  | 10 => ⟨S_, .f32⟩
  | 11 => ⟨S200000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_20 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S200000x1_S200000x64_1_0_n_n_0_1_164_wf : GatherDims.WF S50000x64 S200000x1 S200000x64 [1] [0] [] [0] [] 1 ![1, 64]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KRun.lean ====
/-
  The idealized kernel program's run with its result named: every weakly fair execution from a memory with zero
  counters ends, on every core, with the result buffer holding what the last stretch of host operations leaves there
  when started from the last region's exit contents, and with the twelve argument arrays as launched.  The statement is
  the frame's, with one more conjunct read off the same final thread state.
-/
import proofs.«145741_j55937654063333_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer at the last boundary's contents. -/
theorem run : θ_run defs (onTc (τ := τ) (main (F := F))) ⟨m, fun _ => 0, ρ⟩ (fun r => ∀ c : Dev nD,
      r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.RunVal

end
-- ==== Proof.SageHost.lean ====
/-
  The host-side pieces that both programs apply, each named once as a function of what goes into it.

  `gidx` turns signed node numbers into the start indices of a row gather (a negative number wraps once, as jnp's
  indexing does); `sidx` lays node numbers out as scatter indices; `over64` / `over128` lay a per-node divisor under
  every column.  `mean64` / `mean128` are the mean aggregation of a 64- or 128-column table: gather the source rows,
  scatter-add them at the target nodes into zeros, divide by the laid-out divisor.  `degOnes` counts, in floats, the
  edges arriving at each node and takes the maximum with one; `degCount` counts them in wrapping 32-bit integers first.
  `decode` is the edge score: the two gathered endpoint rows multiplied entry by entry and summed along the row.
  The reference's stages are these functions of its earlier stages, by unfolding.
-/
import proofs.«145741_j55937654063333_2_alg».proof.Proof.Gen.ReferenceIdeal.Read

noncomputable section

namespace Cert.Sage

open Cert.ReferenceIdeal Cert.ReferenceIdeal.Gen Cert.ReferenceIdeal.Read Idealize.ShloMosaic Idealize.ShloMosaic.TcCoe

variable {F : FTy → Type} [FloatOps F]

/-- Start indices of the row gather from signed node numbers: a negative number has the node count added once. -/
def gidx (src : (⟨S800000, .i32⟩ : BufTy).Contents (Elt F)) : (⟨S800000x1, .i32⟩ : BufTy).Contents (Elt F) :=
  broadcastInDim S800000x1 ![0] bcast_S800000_S800000x1_0
    (select (cmpi .slt src (val_main_v4 (F := F))) (addi src (val_main_v6 (F := F))) src)

/-- Node numbers laid out as scatter indices. -/
def sidx (tgt : (⟨S800000, .i32⟩ : BufTy).Contents (Elt F)) : (⟨S800000x1, .i32⟩ : BufTy).Contents (Elt F) :=
  broadcastInDim S800000x1 ![0] bcast_S800000_S800000x1_0 tgt

/-- A per-node value laid under 64 columns. -/
def over64 (d : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 d)

/-- A per-node value laid under 128 columns. -/
def over128 (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

/-- Mean aggregation of a 64-column table. -/
def mean64 (h : (⟨S50000x64, .f32⟩ : BufTy).Contents (Elt F)) (gi si : (⟨S800000x1, .i32⟩ : BufTy).Contents (Elt F))
    (dd : (⟨S50000x64, .f32⟩ : BufTy).Contents (Elt F)) : (⟨S50000x64, .f32⟩ : BufTy).Contents (Elt F) :=
  Host.divf (Host.scatterAdd scatter_S50000x64_S800000x1_S800000x64_1_0_0_1 (val_main_v11 (F := F)) si
    (Host.gather gather_S50000x64_S800000x1_S800000x64_1_0_n_n_0_1_164 h gi)) dd

/-- Mean aggregation of a 128-column table. -/
def mean128 (h : (⟨S50000x128, .f32⟩ : BufTy).Contents (Elt F)) (gi si : (⟨S800000x1, .i32⟩ : BufTy).Contents (Elt F))
    (dd : (⟨S50000x128, .f32⟩ : BufTy).Contents (Elt F)) : (⟨S50000x128, .f32⟩ : BufTy).Contents (Elt F) :=
  Host.divf (Host.scatterAdd scatter_S50000x128_S800000x1_S800000x128_1_0_0_1 (val_main_v37 (F := F)) si
    (Host.gather gather_S50000x128_S800000x1_S800000x128_1_0_n_n_0_1_1128 h gi)) dd

/-- The float count of arriving edges per node, at least one. -/
def degOnes (si : (⟨S800000x1, .i32⟩ : BufTy).Contents (Elt F)) : (⟨S50000, .f32⟩ : BufTy).Contents (Elt F) :=
  maximumf (Host.scatterAdd scatter_S50000_S800000x1_S800000_n_0_0_1 (val_main_v15 (F := F)) si (val_main_v14 (F := F)))
    (val_main_v18 (F := F))

/-- The same count made in wrapping 32-bit integers, converted to a float, at least one. -/
def degCount (si : (⟨S800000x1, .i32⟩ : BufTy).Contents (Elt F)) : (⟨S50000, .f32⟩ : BufTy).Contents (Elt F) :=
  maximumf (sitofp .f32 (Host.scatter scatter_S50000_S800000x1_S800000_n_0_0_1 IntOp.addi
      (broadcastInDim S50000 ![] bcast_S_S50000 (constantI S_ 32 0#32)) si
      (broadcastInDim S800000 ![] bcast_S_S800000 (constantI S_ 32 1#32))))
    (val_main_v18 (F := F))

/-- The edge score: the endpoint rows of z multiplied entry by entry and summed along the row. -/
def decode (z : (⟨S50000x64, .f32⟩ : BufTy).Contents (Elt F)) (x2 : (⟨S2x200000, .i32⟩ : BufTy).Contents (Elt F)) :
    (⟨S200000, .f32⟩ : BufTy).Contents (Elt F) :=
  Host.reduceAdd (mulf (Host.gather gather_S50000x64_S200000x1_S200000x64_1_0_n_n_0_1_164 z (val_main_v88 (F := F) x2))
      (Host.gather gather_S50000x64_S200000x1_S200000x64_1_0_n_n_0_1_164 z (val_main_v97 (F := F) x2)))
    (val_main_cst_20 (F := F)) reducesTo_S200000x64_S200000_d1 h_S_

/-! ## The reference's stages are these functions of its earlier stages -/

theorem ref_gidx (x1 : (⟨S2x800000, .i32⟩ : BufTy).Contents (Elt F)) :
    val_main_v9 (F := F) x1 = gidx (val_main_v1 (F := F) x1) := rfl
theorem ref_gidx' (x1 : (⟨S2x800000, .i32⟩ : BufTy).Contents (Elt F)) :
    val_main_v35 (F := F) x1 = gidx (val_main_v1 (F := F) x1) := rfl
theorem ref_gidx'' (x1 : (⟨S2x800000, .i32⟩ : BufTy).Contents (Elt F)) :
    val_main_v61 (F := F) x1 = gidx (val_main_v1 (F := F) x1) := rfl
theorem ref_sidx (x1 : (⟨S2x800000, .i32⟩ : BufTy).Contents (Elt F)) :
    val_main_v12 (F := F) x1 = sidx (val_main_v3 (F := F) x1) := rfl
theorem ref_deg (x1 : (⟨S2x800000, .i32⟩ : BufTy).Contents (Elt F)) :
    val_main_v19 (F := F) x1 = degOnes (sidx (val_main_v3 (F := F) x1)) := rfl
theorem ref_deg' (x1 : (⟨S2x800000, .i32⟩ : BufTy).Contents (Elt F)) :
    val_main_v45 (F := F) x1 = degOnes (sidx (val_main_v3 (F := F) x1)) := rfl
theorem ref_deg'' (x1 : (⟨S2x800000, .i32⟩ : BufTy).Contents (Elt F)) :
    val_main_v71 (F := F) x1 = degOnes (sidx (val_main_v3 (F := F) x1)) := rfl

/-- The aggregated input of layer 1. -/
theorem ref_mean1 (x0 : (⟨S50000x64, .f32⟩ : BufTy).Contents (Elt F)) (x1 : (⟨S2x800000, .i32⟩ : BufTy).Contents (Elt F)) :
    val_main_v22 (F := F) x0 x1 = mean64 x0 (gidx (val_main_v1 (F := F) x1)) (sidx (val_main_v3 (F := F) x1))
      (over64 (degOnes (sidx (val_main_v3 (F := F) x1)))) := rfl

/-- The aggregated input of layer 2, from layer 1's output `h`. -/
theorem ref_mean2 (x0 : (⟨S50000x64, .f32⟩ : BufTy).Contents (Elt F)) (x1 : (⟨S2x800000, .i32⟩ : BufTy).Contents (Elt F))
    (x3 x4 : (⟨S64x128, .f32⟩ : BufTy).Contents (Elt F)) (x5 : (⟨S128, .f32⟩ : BufTy).Contents (Elt F)) :
    val_main_v48 (F := F) x0 x1 x3 x4 x5 = mean128 (val_main_v29 (F := F) x0 x1 x3 x4 x5) (gidx (val_main_v1 (F := F) x1))
      (sidx (val_main_v3 (F := F) x1)) (over128 (degOnes (sidx (val_main_v3 (F := F) x1)))) := rfl

/-- The aggregated input of layer 3, from layer 2's output. -/
theorem ref_mean3 (x0 : (⟨S50000x64, .f32⟩ : BufTy).Contents (Elt F)) (x1 : (⟨S2x800000, .i32⟩ : BufTy).Contents (Elt F))
    (x3 x4 : (⟨S64x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F)) :
    val_main_v74 (F := F) x0 x1 x3 x4 x5 x6 x7 x8 = mean128 (val_main_v55 (F := F) x0 x1 x3 x4 x5 x6 x7 x8)
      (gidx (val_main_v1 (F := F) x1)) (sidx (val_main_v3 (F := F) x1)) (over128 (degOnes (sidx (val_main_v3 (F := F) x1)))) := rfl

/-- The reference's result is the edge score of its last layer's output. -/
theorem ref_decode (x0 : (⟨S50000x64, .f32⟩ : BufTy).Contents (Elt F)) (x1 : (⟨S2x800000, .i32⟩ : BufTy).Contents (Elt F))
    (x2 : (⟨S2x200000, .i32⟩ : BufTy).Contents (Elt F)) (x3 x4 : (⟨S64x128, .f32⟩ : BufTy).Contents (Elt F))
    (x5 : (⟨S128, .f32⟩ : BufTy).Contents (Elt F)) (x6 x7 : (⟨S128x128, .f32⟩ : BufTy).Contents (Elt F))
    (x8 : (⟨S128, .f32⟩ : BufTy).Contents (Elt F)) (x9 x10 : (⟨S128x64, .f32⟩ : BufTy).Contents (Elt F))
    (x11 : (⟨S64, .f32⟩ : BufTy).Contents (Elt F)) :
    val_main_v100 (F := F) x0 x1 x2 x3 x4 x5 x6 x7 x8 x9 x10 x11
      = decode (val_main_v80 (F := F) x0 x1 x3 x4 x5 x6 x7 x8 x9 x10 x11) x2 := rfl

end Cert.Sage

end
-- ==== Proof.LibSageSpec.lean ====
/-
  The mathematics of the three-layer mean-aggregation graph network, on the extended reals, over arbitrary extents.

  A matrix is a function of its two-coordinate index. `mm x W p q` is entry (p, q) of the product x·W as the plain sum
  over the contraction position. One layer (before any activation) is mean·Wl + x·Wr + b, added in that order, with the
  bias a one-row matrix laid under every row; `layerLast` is the same layer with the aggregated term already multiplied
  out and added second, x·Wr + meanp + b.  `agg` is the mean aggregation read abstractly: node p receives the rows
  `g e` of the edges e in its finite set `E p`, summed column by column and divided by the node's divisor `d p`.
-/
import Idealize.ShloMosaic.Lib.ValueIdx
import Idealize.ShloMosaic.PureOps.Ideal

noncomputable section

open scoped BigOperators

namespace Cert.Sage

open Idealize.ShloMosaic Idealize.ShloMosaic.ValueIdx

/-- An n-by-k matrix of extended reals, as a function of its index. -/
abbrev Mat (n k : Nat) : Type := (⟨2, ![n, k]⟩ : Shape).Idx → EReal

/-- A vector of n extended reals. -/
abbrev Vec1 (n : Nat) : Type := (⟨1, ![n]⟩ : Shape).Idx → EReal

/-- Entry (p, q) of the matrix product x·W. -/
def mm {N K C : Nat} (x : Mat N K) (W : Mat K C) (p : Fin N) (q : Fin C) : EReal :=
  ∑ k : Fin K, x (ix2 p k) * W (ix2 k q)

/-- The product x·W as a matrix. -/
def proj {N K C : Nat} (x : Mat N K) (W : Mat K C) : Mat N C := fun j => mm x W (j 0) (j 1)

/-- One layer before the activation: (mean·Wl + x·Wr) + b, the bias row b laid under every row. -/
def layer {N K C : Nat} (mean x : Mat N K) (Wl Wr : Mat K C) (b : Mat 1 C) : Mat N C :=
  fun j => (mm mean Wl (j 0) (j 1) + mm x Wr (j 0) (j 1)) + b (ix2 0 (j 1))

/-- The last layer in the order that adds the already aggregated product second: (x·Wr + meanp) + b. -/
def layerLast {N K C : Nat} (meanp : Mat N C) (x : Mat N K) (Wr : Mat K C) (b : Mat 1 C) : Mat N C :=
  fun j => (mm x Wr (j 0) (j 1) + meanp j) + b (ix2 0 (j 1))

/-- The positive part, entry by entry. -/
def relu {N C : Nat} (h : Mat N C) : Mat N C := fun j => max (h j) 0

/-- A vector as a one-row matrix. -/
def rowOf {C : Nat} (b : Vec1 C) : Mat 1 C := fun j => b (ix1 (j 1))

/-- Mean aggregation, abstractly: node p sums rows `g e` of h over its edges e ∈ E p, column by column, and divides by d p. -/
def agg {N C R : Nat} (E : Fin N → Finset (Fin R)) (g : Fin R → Fin N) (d : Fin N → EReal) (h : Mat N C) : Mat N C :=
  fun j => Ideal.div (∑ e ∈ E (j 0), h (ix2 (g e) (j 1))) (d (j 0))

theorem proj_apply {N K C : Nat} (x : Mat N K) (W : Mat K C) (p : Fin N) (q : Fin C) :
    proj x W (ix2 p q) = mm x W p q := rfl

theorem layer_apply {N K C : Nat} (mean x : Mat N K) (Wl Wr : Mat K C) (b : Mat 1 C) (p : Fin N) (q : Fin C) :
    layer mean x Wl Wr b (ix2 p q) = (mm mean Wl p q + mm x Wr p q) + b (ix2 0 q) := rfl

theorem layerLast_apply {N K C : Nat} (meanp : Mat N C) (x : Mat N K) (Wr : Mat K C) (b : Mat 1 C) (p : Fin N) (q : Fin C) :
    layerLast meanp x Wr b (ix2 p q) = (mm x Wr p q + meanp (ix2 p q)) + b (ix2 0 q) := rfl

theorem relu_apply {N C : Nat} (h : Mat N C) (j : (⟨2, ![N, C]⟩ : Shape).Idx) : relu h j = max (h j) 0 := rfl

theorem rowOf_apply {C : Nat} (b : Vec1 C) (q : Fin C) : rowOf b (ix2 0 q) = b (ix1 q) := rfl

theorem agg_apply {N C R : Nat} (E : Fin N → Finset (Fin R)) (g : Fin R → Fin N) (d : Fin N → EReal) (h : Mat N C)
    (p : Fin N) (q : Fin C) :
    agg E g d h (ix2 p q) = Ideal.div (∑ e ∈ E p, h (ix2 (g e) q)) (d p) := rfl

end Cert.Sage

end
-- ==== Proof.KernelHost.lean ====
/-
  What the four stretches of host operations of the kernel-side program compute, from any buffer contents `W` at the
  stretch's entry: the two rows of the edge array, the in-degree count (at least one), the three mean aggregations
  (gather the source rows, scatter-add them at the target nodes, divide by the laid-out degree), the biases reshaped to
  one-row matrices, and the edge score of the last layer's output.  Each is one of the shared functions of
  SageHost applied to the buffers the stretch reads.  A buffer the stretch does not write keeps its contents.
-/
import proofs.«145741_j55937654063333_2_alg».proof.Proof.Gen.KernelIdeal.Launch
import proofs.«145741_j55937654063333_2_alg».proof.Proof.SageHost
import proofs.«145741_j55937654063333_2_alg».proof.Proof.LibSageSpec
import Idealize.ShloMosaic.Lib.StableHlo.Run
import Idealize.ShloMosaic.Lib.ValueLayout

noncomputable section

namespace Cert.KernelIdeal.HostVal

open Cert.KernelIdeal Cert.KernelIdeal.Gen Idealize.ShloMosaic Idealize.ShloMosaic.TcCoe Idealize.ShloMosaic.StableHlo
open Cert.Sage Cert.ReferenceIdeal.Read

variable {F : FTy → Type} [FloatOps F] (W : Valuation τ sig (Elt F))

/-! ## The first stretch -/

/-- The source node numbers: row 0 of the edge array. -/
theorem h0_src : StableHlo.after hostOps0 W (Proc.devRef .tc main_v1)
    = val_main_v1 (F := F) (W (Proc.devRef .tc main_arg1)) := by
  show StableHlo.after hostOps0 W (Proc.devRef .tc main_v1) = _
  after_results
  rfl

/-- The target node numbers: row 1 of the edge array. -/
theorem h0_tgt : StableHlo.after hostOps0 W (Proc.devRef .tc main_v3)
    = val_main_v3 (F := F) (W (Proc.devRef .tc main_arg1)) := by
  show StableHlo.after hostOps0 W (Proc.devRef .tc main_v3) = _
  after_results
  rfl

/-- The in-degree, counted in integers, converted, at least one. -/
theorem h0_deg : StableHlo.after hostOps0 W (Proc.devRef .tc main_v10)
    = degCount (F := F) (sidx (val_main_v3 (F := F) (W (Proc.devRef .tc main_arg1)))) := by
  show StableHlo.after hostOps0 W (Proc.devRef .tc main_v10) = _
  after_results_simp
  rfl

/-- The mean aggregation of the input features. -/
theorem h0_mean : StableHlo.after hostOps0 W (Proc.devRef .tc main_v23)
    = mean64 (F := F) (W (Proc.devRef .tc main_arg0))
        (gidx (val_main_v1 (F := F) (W (Proc.devRef .tc main_arg1))))
        (sidx (val_main_v3 (F := F) (W (Proc.devRef .tc main_arg1))))
        (over64 (degCount (F := F) (sidx (val_main_v3 (F := F) (W (Proc.devRef .tc main_arg1)))))) := by
  show StableHlo.after hostOps0 W (Proc.devRef .tc main_v23) = _
  after_results_simp
  rfl

/-- The first layer's bias as a one-row array. -/
theorem h0_bias : StableHlo.after hostOps0 W (Proc.devRef .tc main_v24)
    = shapeCast S1x128 (W (Proc.devRef .tc main_arg5)) shapeCasts_S128_S1x128 := by
  show StableHlo.after hostOps0 W (Proc.devRef .tc main_v24) = _
  after_results
  rfl

/-! ## The second stretch -/

/-- The mean aggregation of the first layer's output. -/
theorem h1_mean : StableHlo.after hostOps1 W (Proc.devRef .tc main_v38)
    = mean128 (F := F) (W (Proc.devRef .tc main_v25)) (gidx (W (Proc.devRef .tc main_v1)))
        (sidx (W (Proc.devRef .tc main_v3))) (over128 (W (Proc.devRef .tc main_v10))) := by
  show StableHlo.after hostOps1 W (Proc.devRef .tc main_v38) = _
  after_results_simp
  rfl

/-- The second layer's bias as a one-row array. -/
theorem h1_bias : StableHlo.after hostOps1 W (Proc.devRef .tc main_v39)
    = shapeCast S1x128 (W (Proc.devRef .tc main_arg8)) shapeCasts_S128_S1x128 := by
  show StableHlo.after hostOps1 W (Proc.devRef .tc main_v39) = _
  after_results
  rfl

/-! ## The third stretch -/

/-- The mean aggregation of the second layer's projected output. -/
theorem h3_mean : StableHlo.after hostOps3 W (Proc.devRef .tc main_v54)
    = mean64 (F := F) (W (Proc.devRef .tc main_v41)) (gidx (W (Proc.devRef .tc main_v1)))
        (sidx (W (Proc.devRef .tc main_v3))) (over64 (W (Proc.devRef .tc main_v10))) := by
  show StableHlo.after hostOps3 W (Proc.devRef .tc main_v54) = _
  after_results_simp
  rfl

/-- The third layer's bias as a one-row array. -/
theorem h3_bias : StableHlo.after hostOps3 W (Proc.devRef .tc main_v55)
    = shapeCast S1x64 (W (Proc.devRef .tc main_arg11)) shapeCasts_S64_S1x64 := by
  show StableHlo.after hostOps3 W (Proc.devRef .tc main_v55) = _
  after_results
  rfl

/-! ## The last stretch -/

/-- The edge scores of the last layer's output. -/
theorem h4_out : StableHlo.after hostOps4 W (Proc.devRef .tc main_v76)
    = decode (F := F) (W (Proc.devRef .tc main_v56)) (W (Proc.devRef .tc main_arg2)) := by
  show StableHlo.after hostOps4 W (Proc.devRef .tc main_v76) = _
  after_results_simp
  rfl

/-! ## A reshaped bias is the one-row matrix of the vector -/

theorem bias_row128 (b : (⟨1, ![128]⟩ : Shape).Idx → EReal) :
    (shapeCast S1x128 b shapeCasts_S128_S1x128 : Cert.Sage.Mat 1 128) = Cert.Sage.rowOf b := by
  funext j
  obtain ⟨p, q, rfl⟩ : ∃ p q, j = ValueIdx.ix2 p q := ⟨j 0, j 1, ValueIdx.eq_ix2 j⟩
  exact ValueIdx.shapeCast_a_1a_apply b shapeCasts_S128_S1x128 p q

theorem bias_row64 (b : (⟨1, ![64]⟩ : Shape).Idx → EReal) :
    (shapeCast S1x64 b shapeCasts_S64_S1x64 : Cert.Sage.Mat 1 64) = Cert.Sage.rowOf b := by
  funext j
  obtain ⟨p, q, rfl⟩ : ∃ p q, j = ValueIdx.ix2 p q := ⟨j 0, j 1, ValueIdx.eq_ix2 j⟩
  exact ValueIdx.shapeCast_a_1a_apply b shapeCasts_S64_S1x64 p q

/-! ## What a stretch does not write it keeps

`writtenK` lists the buffers the operations of stretch K write, one per operation in order; a buffer outside the list
has after the stretch the contents it had before (`keepK_of`), in particular each buffer a later step still reads
(`keepK`). -/

/-- The buffers the operations of `hostOps0` write. -/
abbrev written0 : List (Ref sig .tc) := [main_v0, main_v1, main_v2, main_v3, main_c, main_v4, main_c_0, main_v5, main_v6, main_v7, main_v8, main_cst, main_v9, main_v10, main_c_1, main_v11, main_v12, main_c_2, main_v13, main_v14, main_v15, main_v16, main_v17, main_cst_3, main_v18, main_v19, main_v20, main_v21, main_v22, main_v23, main_v24]

theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside `written0` is unchanged by the stretch. -/
theorem keep0_of (b : Ref sig .tc) (hb : b ∉ written0) :
    StableHlo.after hostOps0 W (Proc.devRef .tc b) = W (Proc.devRef .tc b) :=
  StableHlo.after_of_writes_sub hostOps0 W hostOps0_writes hb

theorem keep0 (b : Ref sig .tc)
    (hb : b ∈ ([main_arg0, main_arg1, main_arg2, main_arg3, main_arg4, main_arg6, main_arg7, main_arg8, main_arg9, main_arg10, main_arg11] : List (Ref sig .tc))) :
    StableHlo.after hostOps0 W (Proc.devRef .tc b) = W (Proc.devRef .tc b) :=
  keep0_of W b ((by decide : ∀ r ∈ ([main_arg0, main_arg1, main_arg2, main_arg3, main_arg4, main_arg6, main_arg7, main_arg8, main_arg9, main_arg10, main_arg11] : List (Ref sig .tc)), r ∉ written0) b hb)

/-- The buffers the operations of `hostOps1` write. -/
abbrev written1 : List (Ref sig .tc) := [main_c_4, main_v26, main_v27, main_c_5, main_v28, main_v29, main_v30, main_v31, main_v32, main_cst_6, main_v33, main_v34, main_v35, main_v36, main_v37, main_v38, main_v39]

theorem hostOps1_writes : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside `written1` is unchanged by the stretch. -/
theorem keep1_of (b : Ref sig .tc) (hb : b ∉ written1) :
    StableHlo.after hostOps1 W (Proc.devRef .tc b) = W (Proc.devRef .tc b) :=
  StableHlo.after_of_writes_sub hostOps1 W hostOps1_writes hb

theorem keep1 (b : Ref sig .tc)
    (hb : b ∈ ([main_v1, main_v3, main_v10, main_v25, main_arg2, main_arg6, main_arg7, main_arg9, main_arg10, main_arg11] : List (Ref sig .tc))) :
    StableHlo.after hostOps1 W (Proc.devRef .tc b) = W (Proc.devRef .tc b) :=
  keep1_of W b ((by decide : ∀ r ∈ ([main_v1, main_v3, main_v10, main_v25, main_arg2, main_arg6, main_arg7, main_arg9, main_arg10, main_arg11] : List (Ref sig .tc)), r ∉ written1) b hb)

/-- The buffers the operations of `hostOps3` write. -/
abbrev written3 : List (Ref sig .tc) := [main_c_7, main_v42, main_v43, main_c_8, main_v44, main_v45, main_v46, main_v47, main_v48, main_cst_9, main_v49, main_v50, main_v51, main_v52, main_v53, main_v54, main_v55]

theorem hostOps3_writes : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside `written3` is unchanged by the stretch. -/
theorem keep3_of (b : Ref sig .tc) (hb : b ∉ written3) :
    StableHlo.after hostOps3 W (Proc.devRef .tc b) = W (Proc.devRef .tc b) :=
  StableHlo.after_of_writes_sub hostOps3 W hostOps3_writes hb

theorem keep3 (b : Ref sig .tc)
    (hb : b ∈ ([main_v40, main_arg2, main_arg10] : List (Ref sig .tc))) :
    StableHlo.after hostOps3 W (Proc.devRef .tc b) = W (Proc.devRef .tc b) :=
  keep3_of W b ((by decide : ∀ r ∈ ([main_v40, main_arg2, main_arg10] : List (Ref sig .tc)), r ∉ written3) b hb)

/-- The buffers the operations of `hostOps4` write. -/
abbrev written4 : List (Ref sig .tc) := [main_v57, main_v58, main_v59, main_v60, main_c_10, main_v61, main_v62, main_c_11, main_v63, main_v64, main_v65, main_v66, main_v67, main_c_12, main_v68, main_v69, main_c_13, main_v70, main_v71, main_v72, main_v73, main_v74, main_v75, main_cst_14, main_v76]

theorem hostOps4_writes : (hostOps4 : List (HloOp τ sig (Elt F))).Forall fun op =>
    op.writes ⊆ (written4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside `written4` is unchanged by the stretch. -/
theorem keep4_of (b : Ref sig .tc) (hb : b ∉ written4) :
    StableHlo.after hostOps4 W (Proc.devRef .tc b) = W (Proc.devRef .tc b) :=
  StableHlo.after_of_writes_sub hostOps4 W hostOps4_writes hb

end Cert.KernelIdeal.HostVal

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Region0.lean ====
/-
  The first layer's region, read as one array.

  The region runs its body at ten points; point t sees rows 5000·t … 5000·t + 4999 of the aggregated features and of the
  node features, the two 64-by-128 weight matrices and the one-row bias whole, and writes rows 5000·t … 5000·t + 4999 of
  the output. The body multiplies each feature block by its weight matrix, adds the two products, adds the bias row to
  every row and takes the positive part. Entry (r, q) of a product is the sum over the contraction position of row r of
  the left factor against column q of the right one, so the block of rows of the product is the product of the block of
  rows: what point t writes back is block t of the layer's value over the whole arrays, and the ten blocks tile the
  50000 rows. Hence the output array ends holding max((mean·Wl + x·Wr) + b, 0).
-/
import proofs.«145741_j55937654063333_2_alg».proof.Proof.Gen.KernelIdeal.Frame
import proofs.«145741_j55937654063333_2_alg».proof.Proof.LibSageSpec
import proofs.«145741_j55937654063333_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-! ## The body's arithmetic at one entry of its block -/

theorem hz0 : (![0, 0] : Fin 2 → Nat) = fun _ => 0 := funext fun a => by fin_cases a <;> rfl

/-- The printed contraction is "rows by contraction, times contraction by columns". -/
theorem dot0_plain : dot_S5000x64_S64x128_S5000x128_1_0_0_1_n_n = DotDims.plain 5000 64 128 := rfl

/-- Entry (r, q) of what the body stores, over any five blocks: the two products summed over the 64 contraction
    positions, added, the bias row's entry q added, and the positive part taken. The format changes and the casts to
    the same shape do nothing to extended reals; the accumulator of each product is zero. -/
theorem pay0_apply (x0 x1 : Vec Ideal S5000x64 .f32) (x2 x3 : Vec Ideal S64x128 .f32) (x4 : Vec Ideal S1x128 .f32)
    (r : Fin 5000) (q : Fin 128) :
    Gen.k0_pay1 x0 x1 x2 x3 x4 (ix2 r q)
      = max (((∑ k : Fin 64, x0 (ix2 r k) * x2 (ix2 k q)) + ∑ k : Fin 64, x1 (ix2 r k) * x3 (ix2 k q)) + x4 (ix2 0 q)) 0 := by
  unfold Gen.k0_pay1
  rw [dot0_plain, shapeCast_self, shapeCast_self, maximumf_apply, addf_apply, addf_apply, broadcast_apply]
  refine congrArg₂ max (congrArg₂ (· + ·) (congrArg₂ (· + ·) ?_ ?_) ?_) ?_
  · exact Cert.Bridge.matmul_plain_zero_apply 5000 64 128 none _ _ r q
  · exact Cert.Bridge.matmul_plain_zero_apply 5000 64 128 none _ _ r q
  · exact broadcastTo_1b_ab_apply x4 _ r q
  · exact Ideal.ofBits_zero_f32

/-! ## The windows' index maps over the grid -/

/-- Point t's block index: (t, 0) for the three row-blocked windows, (0, 0) for the weights and the bias. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The five arrays the region reads, at their shapes -/

/-- The aggregated features, the node features, the two weight matrices and the one-row bias, as the region finds them. -/
noncomputable def mean0 : Cert.Sage.Mat 50000 64 := V c (Pipeline.arrRef spec0 0)
noncomputable def feat0 : Cert.Sage.Mat 50000 64 := V c (Pipeline.arrRef spec0 1)
noncomputable def wl0 : Cert.Sage.Mat 64 128 := V c (Pipeline.arrRef spec0 2)
noncomputable def wr0 : Cert.Sage.Mat 64 128 := V c (Pipeline.arrRef spec0 3)
noncomputable def bias0 : Cert.Sage.Mat 1 128 := V c (Pipeline.arrRef spec0 4)

/-! ## Each input block read off its array -/

/-- Entry x of point t's block of the aggregated features is entry (5000·t + x₀, x₁) of the array. -/
theorem blk0_0 (t : Fin cfg0.N) (x : S5000x64.Idx) (i : S50000x64.Idx)
    (h0 : (i 0).val = 5000 * t.val + (x 0).val) (h1 : (i 1).val = (x 1).val) :
    (Gen.iblk0 V c 0 t : Vec Ideal S5000x64 .f32) x = mean0 V c i := by
  obtain ⟨e00, e01, -⟩ := idx0 t
  unfold Gen.iblk0
  rw [View.read_apply]
  show V c _ _ = V c _ _
  congr 1
  funext a
  apply Fin.ext
  match a with
  | ⟨0, _⟩ => show win0_0.index t 0 * 5000 + 1 * (x 0).val = (i 0).val; rw [e00, h0]; omega
  | ⟨1, _⟩ => show win0_0.index t 1 * 64 + 1 * (x 1).val = (i 1).val; rw [e01, h1]; omega

/-- The same for the node features. -/
theorem blk0_1 (t : Fin cfg0.N) (x : S5000x64.Idx) (i : S50000x64.Idx)
    (h0 : (i 0).val = 5000 * t.val + (x 0).val) (h1 : (i 1).val = (x 1).val) :
    (Gen.iblk0 V c 1 t : Vec Ideal S5000x64 .f32) x = feat0 V c i := by
  obtain ⟨-, -, e10, e11, -⟩ := idx0 t
  unfold Gen.iblk0
  rw [View.read_apply]
  show V c _ _ = V c _ _
  congr 1
  funext a
  apply Fin.ext
  match a with
  | ⟨0, _⟩ => show win0_1.index t 0 * 5000 + 1 * (x 0).val = (i 0).val; rw [e10, h0]; omega
  | ⟨1, _⟩ => show win0_1.index t 1 * 64 + 1 * (x 1).val = (i 1).val; rw [e11, h1]; omega

/-- The two weight windows and the bias window are their whole arrays at every point. -/
theorem blk0_2 (t : Fin cfg0.N) (x : S64x128.Idx) :
    (Gen.iblk0 V c 2 t : Vec Ideal S64x128 .f32) x = wl0 V c x := by
  obtain ⟨-, -, -, -, e20, e21, -⟩ := idx0 t
  unfold Gen.iblk0
  rw [View.read_apply]
  show V c _ _ = V c _ _
  congr 1
  funext a
  apply Fin.ext
  match a with
  | ⟨0, _⟩ => show win0_2.index t 0 * 64 + 1 * (x 0).val = (x 0).val; rw [e20]; omega
  | ⟨1, _⟩ => show win0_2.index t 1 * 128 + 1 * (x 1).val = (x 1).val; rw [e21]; omega

theorem blk0_3 (t : Fin cfg0.N) (x : S64x128.Idx) :
    (Gen.iblk0 V c 3 t : Vec Ideal S64x128 .f32) x = wr0 V c x := by
  obtain ⟨-, -, -, -, -, -, e30, e31, -⟩ := idx0 t
  unfold Gen.iblk0
  rw [View.read_apply]
  show V c _ _ = V c _ _
  congr 1
  funext a
  apply Fin.ext
  match a with
  | ⟨0, _⟩ => show win0_3.index t 0 * 64 + 1 * (x 0).val = (x 0).val; rw [e30]; omega
  | ⟨1, _⟩ => show win0_3.index t 1 * 128 + 1 * (x 1).val = (x 1).val; rw [e31]; omega

theorem blk0_4 (t : Fin cfg0.N) (x : S1x128.Idx) :
    (Gen.iblk0 V c 4 t : Vec Ideal S1x128 .f32) x = bias0 V c x := by
  obtain ⟨-, -, -, -, -, -, -, -, e40, e41, -⟩ := idx0 t
  unfold Gen.iblk0
  rw [View.read_apply]
  show V c _ _ = V c _ _
  congr 1
  funext a
  apply Fin.ext
  match a with
  | ⟨0, _⟩ => show win0_4.index t 0 * 1 + 1 * (x 0).val = (x 0).val; rw [e40]; omega
  | ⟨1, _⟩ => show win0_4.index t 1 * 128 + 1 * (x 1).val = (x 1).val; rw [e41]; omega

/-! ## What one point writes back -/

/-- The layer's value over the whole arrays as the region finds them. -/
noncomputable def G0 : Cert.Sage.Mat 50000 128 :=
  Cert.Sage.relu (Cert.Sage.layer (mean0 V c) (feat0 V c) (wl0 V c) (wr0 V c) (bias0 V c))

theorem G0_apply (p : Fin 50000) (q : Fin 128) :
    G0 V c (ix2 p q) = max (((∑ k : Fin 64, mean0 V c (ix2 p k) * wl0 V c (ix2 k q))
      + ∑ k : Fin 64, feat0 V c (ix2 p k) * wr0 V c (ix2 k q)) + bias0 V c (ix2 0 q)) 0 := rfl

/-- Entry y of what point t's body leaves is the layer's value at row 5000·t + y₀, column y₁: a row of a product
    needs that row of the left factor only, and the block's rows are the array's rows from 5000·t on. -/
theorem point0 (t : Fin cfg0.N) (y : S5000x128.Idx) (i : S50000x128.Idx)
    (h0 : (i 0).val = 5000 * t.val + (y 0).val) (h1 : (i 1).val = (y 1).val) :
    Gen.k0_pay1 (Gen.iblk0 V c 0 t) (Gen.iblk0 V c 1 t) (Gen.iblk0 V c 2 t) (Gen.iblk0 V c 3 t) (Gen.iblk0 V c 4 t) y = G0 V c i := by
  obtain ⟨r, q, rfl⟩ : ∃ r q, y = ix2 r q := ⟨y 0, y 1, eq_ix2 y⟩
  obtain ⟨p, q', rfl⟩ : ∃ p q', i = ix2 p q' := ⟨i 0, i 1, eq_ix2 i⟩
  have hq : q = q' := (Fin.ext h1).symm
  subst hq
  refine (pay0_apply _ _ _ _ _ r q).trans ?_
  rw [G0_apply]
  refine congrArg₂ max (congrArg₂ (· + ·) (congrArg₂ (· + ·) ?_ ?_) ?_) rfl
  · exact Finset.sum_congr rfl fun k _ => congrArg₂ (· * ·) (blk0_0 V c t _ _ h0 rfl) (blk0_2 V c t _)
  · exact Finset.sum_congr rfl fun k _ => congrArg₂ (· * ·) (blk0_1 V c t _ _ h0 rfl) (blk0_3 V c t _)
  · exact blk0_4 V c t _

/-- What point t writes back is block t of the layer's value: the body loads its whole buffers and stores once through
    the whole output buffer, and entry j of that buffer lands at row 5000·t + j₀ of the array. -/
theorem flushed0_eq (t : Fin cfg0.N) :
    (Gen.dat0 (F := Ideal) V c).flushed 5 t = ((cfg0.win 5).blk t).view.read (Elt Ideal) (G0 V c) := by
  obtain ⟨-, -, -, -, -, -, -, -, -, -, e50, e51⟩ := idx0 t
  show (cfg0.win 5).cut (grid0.coords t) ((Gen.dat0 V c).after 5 t) = _
  rw [Gen.after0_5]
  unfold Gen.out0_5
  rw [View.canon_unit_zero hz0]
  simp only [View.ld_unit_zero (S := S5000x64) hz0, View.ld_unit_zero (S := S64x128) hz0, View.ld_unit_zero (S := S1x128) hz0]
  funext j
  refine point0 V c t _ _ ?_ ?_
  · show win0_5.index t 0 * 5000 + 1 * (j 0).val = 5000 * t.val + (j 0).val
    rw [e50]; omega
  · show win0_5.index t 1 * 128 + 1 * (j 1).val = (j 1).val
    rw [e51]; omega

/-! ## The blocks cover the array -/

/-- Row r of the array lies in the block of point r / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, e50, e51⟩ := idx0 t
  refine ⟨t, Gen.flush0_5 t, ?_⟩
  show i ∈ ((View.whole main_v25).slice (win0_5.rect t)).set
  rw [View.set_slice_whole, Rect.mem_set_unit]
  intro a
  match a with
  | ⟨0, _⟩ =>
    show win0_5.index t 0 * 5000 ≤ (i 0).val ∧ (i 0).val < win0_5.index t 0 * 5000 + 5000
    rw [e50]; omega
  | ⟨1, _⟩ =>
    show win0_5.index t 1 * 128 ≤ (i 1).val ∧ (i 1).val < win0_5.index t 1 * 128 + 128
    rw [e51]; omega

/-! ## The array after the region -/

theorem region0_G : (Gen.dat0 (F := Ideal) V c).arrAt 5 cfg0.N = G0 V c :=
  (Gen.dat0 (F := Ideal) V c).arrAt_eq_of_cover 5 (G0 V c) (fun t _ => flushed0_eq V c t) (cover0)

/-- The output array of the first layer's region, after its ten points: the positive part of
    (mean·Wl + x·Wr) + b over the arrays the region found. -/
theorem region0_value : (Gen.dat0 (F := Ideal) V c).arrAt 5 cfg0.N = Cert.Sage.relu (Cert.Sage.layer (V c (Pipeline.arrRef spec0 0)) (V c (Pipeline.arrRef spec0 1)) (V c (Pipeline.arrRef spec0 2)) (V c (Pipeline.arrRef spec0 3)) (V c (Pipeline.arrRef spec0 4))) :=
  region0_G V c

end Cert.KernelIdeal.RegionVal

end
-- ==== Proof.Region1.lean ====
/-
  The value of the second dense region: max((mean·Wl + x·Wr) + b, 0) over [50000,128] arrays, computed 5000 rows at a time.

  Each of the ten grid points multiplies one block of 5000 rows of the aggregated input by the whole left weight and
  the same block of rows of x by the whole right weight (the casts to the narrower format are the identity on the
  ideal values, each accumulator starts at zero), adds the two products, then the one-row bias laid under every row,
  takes the positive part, and writes the [5000,128] result back as the same block of rows of the output. Row r of
  block t is row 5000·t + r of its array, the weights and the bias are whole at every point; so what point t writes
  back is block t of the activated layer of the whole arrays. The ten blocks tile the output array, hence the array
  ends holding the activated layer.
-/
import proofs.«145741_j55937654063333_2_alg».proof.Proof.Gen.KernelIdeal.Frame
import proofs.«145741_j55937654063333_2_alg».proof.Proof.LibSageSpec
import proofs.«145741_j55937654063333_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

theorem dot1_plain : dot_S5000x128_S128x128_S5000x128_1_0_0_1_n_n = DotDims.plain 5000 128 128 := rfl

/-- The body's arithmetic at an entry: row r of the block of the aggregated input against column q of the left weight,
    plus row r of the block of x against column q of the right weight, plus the bias at column q, and the positive part. -/
theorem pay1_apply (x0 x1 : Vec Ideal S5000x128 .f32) (x2 x3 : Vec Ideal S128x128 .f32) (x4 : Vec Ideal S1x128 .f32)
    (r : Fin 5000) (q : Fin 128) :
    k1_pay1 x0 x1 x2 x3 x4 (ix2 r q)
      = max (((∑ k : Fin 128, x0 (ix2 r k) * x2 (ix2 k q)) + (∑ k : Fin 128, x1 (ix2 r k) * x3 (ix2 k q))) + x4 (ix2 (0 : Fin 1) q)) 0 := by
  unfold k1_pay1
  rw [dot1_plain]
  refine (maximumf_apply _ _ _).trans ?_
  refine congrArg₂ max ?_ ?_
  · refine (addf_apply _ _ _).trans (congrArg₂ (· + ·) ((addf_apply _ _ _).trans (congrArg₂ (· + ·) ?_ ?_)) ?_)
    · refine (Cert.Bridge.matmul_plain_zero_apply 5000 128 128 none _ _ r q).trans ?_
      refine Finset.sum_congr rfl fun k _ => ?_
      rw [truncf_apply, truncf_apply, shapeCast_self]
    · refine (Cert.Bridge.matmul_plain_zero_apply 5000 128 128 none _ _ r q).trans ?_
      refine Finset.sum_congr rfl fun k _ => ?_
      rw [truncf_apply, truncf_apply, shapeCast_self]
    · rw [shapeCast_self]
      exact broadcastTo_1b_ab_apply _ _ r q
  · exact Ideal.ofBits_zero_f32

/-- The index maps over the grid: the row-blocked windows move one block of rows per point, the weights and the bias stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- Block t of the aggregated input is rows 5000·t … 5000·t + 4999 of its array. -/
theorem iblk1_0_apply (t : Fin cfg1.N) (r : Fin 5000) (k : Fin 128) (p : Fin 50000) (hp : p.val = t.val * 5000 + r.val) :
    (iblk1 V c 0 t : Vec Ideal S5000x128 .f32) (ix2 r k) = (V c (Pipeline.arrRef spec1 0) : S50000x128.Idx → EReal) (ix2 p k) := by
  obtain ⟨e0, e1, -⟩ := idx1 t
  unfold iblk1
  rw [View.read_apply]
  show (V c (Pipeline.arrRef spec1 0) : S50000x128.Idx → EReal) _ = _
  congr 1
  funext a
  apply Fin.ext
  match a with
  | ⟨0, _⟩ => show win1_0.index t (0 : Fin 2) * 5000 + 1 * r.val = p.val; rw [e0, hp]; omega
  | ⟨1, _⟩ => show win1_0.index t (1 : Fin 2) * 128 + 1 * k.val = k.val; rw [e1]; omega

/-- Block t of x is rows 5000·t … 5000·t + 4999 of its array. -/
theorem iblk1_1_apply (t : Fin cfg1.N) (r : Fin 5000) (k : Fin 128) (p : Fin 50000) (hp : p.val = t.val * 5000 + r.val) :
    (iblk1 V c 1 t : Vec Ideal S5000x128 .f32) (ix2 r k) = (V c (Pipeline.arrRef spec1 1) : S50000x128.Idx → EReal) (ix2 p k) := by
  obtain ⟨-, -, e0, e1, -⟩ := idx1 t
  unfold iblk1
  rw [View.read_apply]
  show (V c (Pipeline.arrRef spec1 1) : S50000x128.Idx → EReal) _ = _
  congr 1
  funext a
  apply Fin.ext
  match a with
  | ⟨0, _⟩ => show win1_1.index t (0 : Fin 2) * 5000 + 1 * r.val = p.val; rw [e0, hp]; omega
  | ⟨1, _⟩ => show win1_1.index t (1 : Fin 2) * 128 + 1 * k.val = k.val; rw [e1]; omega

/-- The left weight's block is the whole weight at every point. -/
theorem iblk1_2_apply (t : Fin cfg1.N) (k : Fin 128) (q : Fin 128) :
    (iblk1 V c 2 t : Vec Ideal S128x128 .f32) (ix2 k q) = (V c (Pipeline.arrRef spec1 2) : S128x128.Idx → EReal) (ix2 k q) := by
  obtain ⟨-, -, -, -, e0, e1, -⟩ := idx1 t
  unfold iblk1
  rw [View.read_apply]
  show (V c (Pipeline.arrRef spec1 2) : S128x128.Idx → EReal) _ = _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The right weight's block is the whole weight at every point. -/
theorem iblk1_3_apply (t : Fin cfg1.N) (k : Fin 128) (q : Fin 128) :
    (iblk1 V c 3 t : Vec Ideal S128x128 .f32) (ix2 k q) = (V c (Pipeline.arrRef spec1 3) : S128x128.Idx → EReal) (ix2 k q) := by
  obtain ⟨-, -, -, -, -, -, e0, e1, -⟩ := idx1 t
  unfold iblk1
  rw [View.read_apply]
  show (V c (Pipeline.arrRef spec1 3) : S128x128.Idx → EReal) _ = _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias window's block is the whole one-row bias at every point. -/
theorem iblk1_4_apply (t : Fin cfg1.N) (q : Fin 128) :
    (iblk1 V c 4 t : Vec Ideal S1x128 .f32) (ix2 (0 : Fin 1) q) = (V c (Pipeline.arrRef spec1 4) : S1x128.Idx → EReal) (ix2 (0 : Fin 1) q) := by
  obtain ⟨-, -, -, -, -, -, -, -, e0, e1, -⟩ := idx1 t
  unfold iblk1
  rw [View.read_apply]
  show (V c (Pipeline.arrRef spec1 4) : S1x128.Idx → EReal) _ = _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; rw [e1]; omega

/-- The layer of the arrays the region finds in its input windows, with its activation: max((mean·Wl + x·Wr) + b, 0). -/
abbrev G1 : S50000x128.Idx → EReal :=
  Cert.Sage.relu (Cert.Sage.layer (V c (Pipeline.arrRef spec1 0) : S50000x128.Idx → EReal) (V c (Pipeline.arrRef spec1 1) : S50000x128.Idx → EReal)
    (V c (Pipeline.arrRef spec1 2) : S128x128.Idx → EReal) (V c (Pipeline.arrRef spec1 3) : S128x128.Idx → EReal)
    (V c (Pipeline.arrRef spec1 4) : S1x128.Idx → EReal))

/-- An entry of output block t sits in the array at row 5000·t + its row, same column. -/
theorem emb1_5 (t : Fin cfg1.N) (r : Fin 5000) (q : Fin 128) (p : Fin 50000) (hp : p.val = t.val * 5000 + r.val) :
    ((cfg1.win 5).blk t).view.emb (ix2 r q : S5000x128.Idx) = (ix2 p q : S50000x128.Idx) := by
  obtain ⟨-, -, -, -, -, -, -, -, -, -, e4, e5⟩ := idx1 t
  funext a
  apply Fin.ext
  match a with
  | ⟨0, _⟩ => show win1_5.index t (0 : Fin 2) * 5000 + 1 * r.val = p.val; rw [e4, hp]; omega
  | ⟨1, _⟩ => show win1_5.index t (1 : Fin 2) * 128 + 1 * q.val = q.val; rw [e5]; omega

/-- What point t writes back is block t of the activated layer: every term of an entry reads row 5000·t + r of a
    row-blocked array, or the weights and the bias, which are whole at every point. -/
theorem flushed1_eq (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1, View.ld_unit_zero (S := S1x128) hz1]
  funext j
  revert j
  show ∀ j : S5000x128.Idx, k1_pay1 (iblk1 V c 0 t) (iblk1 V c 1 t) (iblk1 V c 2 t) (iblk1 V c 3 t) (iblk1 V c 4 t) j
    = G1 V c (((cfg1.win 5).blk t).view.emb j)
  intro j
  obtain ⟨r, q, rfl⟩ : ∃ r q, j = ix2 r q := ⟨j 0, j 1, eq_ix2 j⟩
  have hN : t.val < 10 := Nat.lt_of_lt_of_eq t.isLt (show cfg1.N = 10 from N_1)
  have hr : r.val < 5000 := r.isLt
  obtain ⟨p, hp⟩ : ∃ p : Fin 50000, p.val = t.val * 5000 + r.val := ⟨⟨t.val * 5000 + r.val, by omega⟩, rfl⟩
  rw [emb1_5 t r q p hp]
  refine (pay1_apply _ _ _ _ _ r q).trans ?_
  refine Eq.trans ?_ ((Cert.Sage.relu_apply _ (ix2 p q)).trans (congrArg (fun s => max s 0) (Cert.Sage.layer_apply _ _ _ _ _ p q))).symm
  unfold Cert.Sage.mm
  rw [iblk1_4_apply V c t q]
  refine congrArg₂ (fun s s' => max (s + s' + _) 0) (Finset.sum_congr rfl fun k _ => ?_) (Finset.sum_congr rfl fun k _ => ?_)
  · rw [iblk1_0_apply V c t r k p hp, iblk1_2_apply V c t k q]
  · rw [iblk1_1_apply V c t r k p hp, iblk1_3_apply V c t k q]

/-- Row p of the output array is in the block of point p / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e4, e5⟩ := idx1 t
  refine ⟨t, flush1_5 t, ?_⟩
  show i ∈ ((View.whole main_v40).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; rw [e4, ht]; omega
  | ⟨1, _⟩ => show win1_5.index t (1 : Fin 2) * 128 ≤ (i 1).val ∧ (i 1).val < win1_5.index t (1 : Fin 2) * 128 + 128; rw [e5]; omega

/-- After the region, its output array holds the activated layer of the five input arrays as the region found them. -/
theorem region1_value : (Gen.dat1 (F := Ideal) V c).arrAt 5 cfg1.N
    = (Cert.Sage.relu (Cert.Sage.layer (V c (Pipeline.arrRef spec1 0) : S50000x128.Idx → EReal) (V c (Pipeline.arrRef spec1 1) : S50000x128.Idx → EReal)
        (V c (Pipeline.arrRef spec1 2) : S128x128.Idx → EReal) (V c (Pipeline.arrRef spec1 3) : S128x128.Idx → EReal)
        (V c (Pipeline.arrRef spec1 4) : S1x128.Idx → EReal)) : S50000x128.Idx → EReal) :=
  (dat1 V c).arrAt_eq_of_cover 5 (G1 V c) (fun t _ => flushed1_eq V c t) cover1

end Cert.KernelIdeal.RegionVal

end
-- ==== Proof.Region2.lean ====
/-
  The value of the projection region: a [50000,128] array times a [128,64] weight, computed 5000 rows at a time.

  Each of the ten grid points multiplies one block of 5000 rows by the whole weight (the casts to the narrower format
  are the identity on the ideal values, the accumulator starts at zero), and writes the [5000,64] result back as the
  same block of rows of the output. Entry (r, q) of a block's product is the sum over k of row r of the block against
  column q of the weight, and row r of block t is row 5000·t + r of the array; so what point t writes back is block t
  of the whole product. The ten blocks tile the output array, hence the array ends holding the product.
-/
import proofs.«145741_j55937654063333_2_alg».proof.Proof.Gen.KernelIdeal.Frame
import proofs.«145741_j55937654063333_2_alg».proof.Proof.LibSageSpec
import proofs.«145741_j55937654063333_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

theorem dot2_plain : dot_S5000x128_S128x64_S5000x64_1_0_0_1_n_n = DotDims.plain 5000 128 64 := rfl

theorem pay2_apply (x0 : Vec Ideal S5000x128 .f32) (x1 : Vec Ideal S128x64 .f32) (r : Fin 5000) (q : Fin 64) :
    k2_pay1 x0 x1 (ix2 r q) = ∑ k : Fin 128, x0 (ix2 r k) * x1 (ix2 k q) := by
  unfold k2_pay1
  rw [dot2_plain]
  refine (Cert.Bridge.matmul_plain_zero_apply 5000 128 64 none _ _ r q).trans ?_
  refine Finset.sum_congr rfl fun k _ => ?_
  rw [truncf_apply, truncf_apply, shapeCast_self]

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-- Block t of the row-blocked input is rows 5000·t … 5000·t + 4999 of its array. -/
theorem iblk2_0_apply (t : Fin cfg2.N) (r : Fin 5000) (k : Fin 128) (p : Fin 50000) (hp : p.val = t.val * 5000 + r.val) :
    (iblk2 V c 0 t : Vec Ideal S5000x128 .f32) (ix2 r k) = (V c (Pipeline.arrRef spec2 0) : S50000x128.Idx → EReal) (ix2 p k) := by
  obtain ⟨e0, e1, -⟩ := idx2 t
  unfold iblk2
  rw [View.read_apply]
  show (V c (Pipeline.arrRef spec2 0) : S50000x128.Idx → EReal) _ = _
  congr 1
  funext a
  apply Fin.ext
  match a with
  | ⟨0, _⟩ => show win2_0.index t (0 : Fin 2) * 5000 + 1 * r.val = p.val; rw [e0, hp]; omega
  | ⟨1, _⟩ => show win2_0.index t (1 : Fin 2) * 128 + 1 * k.val = k.val; rw [e1]; omega

/-- The weight window's block is the whole weight at every point. -/
theorem iblk2_1_apply (t : Fin cfg2.N) (k : Fin 128) (q : Fin 64) :
    (iblk2 V c 1 t : Vec Ideal S128x64 .f32) (ix2 k q) = (V c (Pipeline.arrRef spec2 1) : S128x64.Idx → EReal) (ix2 k q) := by
  obtain ⟨-, -, e2, e3, -⟩ := idx2 t
  unfold iblk2
  rw [View.read_apply]
  show (V c (Pipeline.arrRef spec2 1) : S128x64.Idx → EReal) _ = _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- The product of the two arrays the region finds in its input windows. -/
abbrev G2 : S50000x64.Idx → EReal :=
  Cert.Sage.proj (V c (Pipeline.arrRef spec2 0) : S50000x128.Idx → EReal) (V c (Pipeline.arrRef spec2 1) : S128x64.Idx → EReal)

/-- An entry of output block t sits in the array at row 5000·t + its row, same column. -/
theorem emb2_2 (t : Fin cfg2.N) (r : Fin 5000) (q : Fin 64) (p : Fin 50000) (hp : p.val = t.val * 5000 + r.val) :
    ((cfg2.win 2).blk t).view.emb (ix2 r q : S5000x64.Idx) = (ix2 p q : S50000x64.Idx) := by
  obtain ⟨-, -, -, -, e4, e5⟩ := idx2 t
  funext a
  apply Fin.ext
  match a with
  | ⟨0, _⟩ => show win2_2.index t (0 : Fin 2) * 5000 + 1 * r.val = p.val; rw [e4, hp]; omega
  | ⟨1, _⟩ => show win2_2.index t (1 : Fin 2) * 64 + 1 * q.val = q.val; rw [e5]; omega

/-- What point t writes back is block t of the product: a product computed on a block of rows is that block of rows of the product. -/
theorem flushed2_eq (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x64) hz2]
  funext j
  revert j
  show ∀ j : S5000x64.Idx, k2_pay1 (iblk2 V c 0 t) (iblk2 V c 1 t) j = G2 V c (((cfg2.win 2).blk t).view.emb j)
  intro j
  obtain ⟨r, q, rfl⟩ : ∃ r q, j = ix2 r q := ⟨j 0, j 1, eq_ix2 j⟩
  have hN : t.val < 10 := Nat.lt_of_lt_of_eq t.isLt (show cfg2.N = 10 from N_2)
  have hr : r.val < 5000 := r.isLt
  rw [emb2_2 t r q ⟨t.val * 5000 + r.val, by omega⟩ rfl]
  refine (pay2_apply _ _ r q).trans ?_
  show _ = Cert.Sage.mm _ _ _ _
  unfold Cert.Sage.mm
  refine Finset.sum_congr rfl fun k _ => ?_
  rw [iblk2_0_apply V c t r k ⟨t.val * 5000 + r.val, by omega⟩ rfl, iblk2_1_apply V c t k q]

/-- Row p of the output array is in the block of point p / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, e4, e5⟩ := idx2 t
  refine ⟨t, flush2_2 t, ?_⟩
  show i ∈ ((View.whole main_v41).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- After the region, its output array holds the product of the two input arrays as the region found them. -/
theorem region2_value : (Gen.dat2 (F := Ideal) V c).arrAt 2 cfg2.N
    = (Cert.Sage.proj (V c (Pipeline.arrRef spec2 0) : S50000x128.Idx → EReal) (V c (Pipeline.arrRef spec2 1) : S128x64.Idx → EReal) : S50000x64.Idx → EReal) :=
  (dat2 V c).arrAt_eq_of_cover 2 (G2 V c) (fun t _ => flushed2_eq V c t) cover2

end Cert.KernelIdeal.RegionVal

end
-- ==== Proof.Region3.lean ====
/-
  The value of the last dense region: (x·Wr + meanp) + b over [50000,·] arrays, computed 5000 rows at a time.

  Each of the ten grid points multiplies one block of 5000 rows of x by the whole weight Wr (the casts to the narrower
  format are the identity on the ideal values, the accumulator starts at zero), adds the same block of rows of the
  already aggregated term meanp, then the one-row bias laid under every row, and writes the [5000,64] result back as
  the same block of rows of the output. Row r of block t is row 5000·t + r of its array, the weight and the bias are
  whole at every point; so what point t writes back is block t of the layer of the whole arrays. The ten blocks tile
  the output array, hence the array ends holding the layer.
-/
import proofs.«145741_j55937654063333_2_alg».proof.Proof.Gen.KernelIdeal.Frame
import proofs.«145741_j55937654063333_2_alg».proof.Proof.LibSageSpec
import proofs.«145741_j55937654063333_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.ShloMosaic.ValueIdx Idealize.SL.Sem
open Idealize.ShloMosaic.Pipeline (Dat)

theorem hz3 : (![0, 0] : Fin 2 → Nat) = fun _ => 0 := funext fun a => by fin_cases a <;> rfl

theorem dot3_plain : dot_S5000x128_S128x64_S5000x64_1_0_0_1_n_n = DotDims.plain 5000 128 64 := rfl

/-- The body's arithmetic at an entry: row r of the block of x against column q of the weight, plus the block of the
    aggregated term at (r, q), plus the bias at column q. -/
theorem pay3_apply (x0 : Vec Ideal S5000x128 .f32) (x1 : Vec Ideal S128x64 .f32) (x2 : Vec Ideal S5000x64 .f32) (x3 : Vec Ideal S1x64 .f32)
    (r : Fin 5000) (q : Fin 64) :
    k3_pay1 x0 x1 x2 x3 (ix2 r q) = ((∑ k : Fin 128, x0 (ix2 r k) * x1 (ix2 k q)) + x2 (ix2 r q)) + x3 (ix2 (0 : Fin 1) q) := by
  unfold k3_pay1
  rw [dot3_plain]
  refine (addf_apply _ _ _).trans ?_
  refine congrArg₂ (· + ·) ((addf_apply _ _ _).trans (congrArg₂ (· + ·) ?_ ?_)) ?_
  · refine (Cert.Bridge.matmul_plain_zero_apply 5000 128 64 none _ _ r q).trans ?_
    refine Finset.sum_congr rfl fun k _ => ?_
    rw [truncf_apply, truncf_apply, shapeCast_self]
  · rw [shapeCast_self]
  · rw [shapeCast_self]
    exact broadcastTo_1b_ab_apply _ _ r q

/-- The index maps over the grid: the row-blocked windows move one block of rows per point, the weight and the bias stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- Block t of the aggregated term is rows 5000·t … 5000·t + 4999 of its array. -/
theorem iblk3_0_apply (t : Fin cfg3.N) (r : Fin 5000) (q : Fin 64) (p : Fin 50000) (hp : p.val = t.val * 5000 + r.val) :
    (iblk3 V c 0 t : Vec Ideal S5000x64 .f32) (ix2 r q) = (V c (Pipeline.arrRef spec3 0) : S50000x64.Idx → EReal) (ix2 p q) := by
  obtain ⟨e0, e1, -⟩ := idx3 t
  unfold iblk3
  rw [View.read_apply]
  show (V c (Pipeline.arrRef spec3 0) : S50000x64.Idx → EReal) _ = _
  congr 1
  funext a
  apply Fin.ext
  match a with
  | ⟨0, _⟩ => show win3_0.index t (0 : Fin 2) * 5000 + 1 * r.val = p.val; rw [e0, hp]; omega
  | ⟨1, _⟩ => show win3_0.index t (1 : Fin 2) * 64 + 1 * q.val = q.val; rw [e1]; omega

/-- Block t of x is rows 5000·t … 5000·t + 4999 of its array. -/
theorem iblk3_1_apply (t : Fin cfg3.N) (r : Fin 5000) (k : Fin 128) (p : Fin 50000) (hp : p.val = t.val * 5000 + r.val) :
    (iblk3 V c 1 t : Vec Ideal S5000x128 .f32) (ix2 r k) = (V c (Pipeline.arrRef spec3 1) : S50000x128.Idx → EReal) (ix2 p k) := by
  obtain ⟨-, -, e0, e1, -⟩ := idx3 t
  unfold iblk3
  rw [View.read_apply]
  show (V c (Pipeline.arrRef spec3 1) : S50000x128.Idx → EReal) _ = _
  congr 1
  funext a
  apply Fin.ext
  match a with
  | ⟨0, _⟩ => show win3_1.index t (0 : Fin 2) * 5000 + 1 * r.val = p.val; rw [e0, hp]; omega
  | ⟨1, _⟩ => show win3_1.index t (1 : Fin 2) * 128 + 1 * k.val = k.val; rw [e1]; omega

/-- The weight window's block is the whole weight at every point. -/
theorem iblk3_2_apply (t : Fin cfg3.N) (k : Fin 128) (q : Fin 64) :
    (iblk3 V c 2 t : Vec Ideal S128x64 .f32) (ix2 k q) = (V c (Pipeline.arrRef spec3 2) : S128x64.Idx → EReal) (ix2 k q) := by
  obtain ⟨-, -, -, -, e0, e1, -⟩ := idx3 t
  unfold iblk3
  rw [View.read_apply]
  show (V c (Pipeline.arrRef spec3 2) : S128x64.Idx → EReal) _ = _
  congr 1
  funext a
  apply Fin.ext
  match a with
  | ⟨0, _⟩ => show win3_2.index t (0 : Fin 2) * 128 + 1 * k.val = k.val; rw [e0]; omega
  | ⟨1, _⟩ => show win3_2.index t (1 : Fin 2) * 64 + 1 * q.val = q.val; rw [e1]; omega

/-- The bias window's block is the whole one-row bias at every point. -/
theorem iblk3_3_apply (t : Fin cfg3.N) (q : Fin 64) :
    (iblk3 V c 3 t : Vec Ideal S1x64 .f32) (ix2 (0 : Fin 1) q) = (V c (Pipeline.arrRef spec3 3) : S1x64.Idx → EReal) (ix2 (0 : Fin 1) q) := by
  obtain ⟨-, -, -, -, -, -, e0, e1, -⟩ := idx3 t
  unfold iblk3
  rw [View.read_apply]
  show (V c (Pipeline.arrRef spec3 3) : S1x64.Idx → EReal) _ = _
  congr 1
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 64 + 1 * q.val = q.val; rw [e1]; omega

/-- The last layer of the arrays the region finds in its input windows: (x·Wr + meanp) + b. -/
abbrev G3 : S50000x64.Idx → EReal :=
  Cert.Sage.layerLast (V c (Pipeline.arrRef spec3 0) : S50000x64.Idx → EReal) (V c (Pipeline.arrRef spec3 1) : S50000x128.Idx → EReal)
    (V c (Pipeline.arrRef spec3 2) : S128x64.Idx → EReal) (V c (Pipeline.arrRef spec3 3) : S1x64.Idx → EReal)

/-- An entry of output block t sits in the array at row 5000·t + its row, same column. -/
theorem emb3_4 (t : Fin cfg3.N) (r : Fin 5000) (q : Fin 64) (p : Fin 50000) (hp : p.val = t.val * 5000 + r.val) :
    ((cfg3.win 4).blk t).view.emb (ix2 r q : S5000x64.Idx) = (ix2 p q : S50000x64.Idx) := by
  obtain ⟨-, -, -, -, -, -, -, -, e4, e5⟩ := idx3 t
  funext a
  apply Fin.ext
  match a with
  | ⟨0, _⟩ => show win3_4.index t (0 : Fin 2) * 5000 + 1 * r.val = p.val; rw [e4, hp]; omega
  | ⟨1, _⟩ => show win3_4.index t (1 : Fin 2) * 64 + 1 * q.val = q.val; rw [e5]; omega

/-- What point t writes back is block t of the layer: every term of an entry reads row 5000·t + r of a row-blocked
    array, or the weight and the bias, which are whole at every point. -/
theorem flushed3_eq (t : Fin cfg3.N) :
    (dat3 (F := Ideal) V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S128x64) hz3, View.ld_unit_zero (S := S5000x64) hz3,
    View.ld_unit_zero (S := S1x64) hz3]
  funext j
  revert j
  show ∀ j : S5000x64.Idx, k3_pay1 (iblk3 V c 1 t) (iblk3 V c 2 t) (iblk3 V c 0 t) (iblk3 V c 3 t) j = G3 V c (((cfg3.win 4).blk t).view.emb j)
  intro j
  obtain ⟨r, q, rfl⟩ : ∃ r q, j = ix2 r q := ⟨j 0, j 1, eq_ix2 j⟩
  have hN : t.val < 10 := Nat.lt_of_lt_of_eq t.isLt (show cfg3.N = 10 from N_3)
  have hr : r.val < 5000 := r.isLt
  obtain ⟨p, hp⟩ : ∃ p : Fin 50000, p.val = t.val * 5000 + r.val := ⟨⟨t.val * 5000 + r.val, by omega⟩, rfl⟩
  rw [emb3_4 t r q p hp]
  refine (pay3_apply _ _ _ _ r q).trans ?_
  refine Eq.trans ?_ (Cert.Sage.layerLast_apply _ _ _ _ p q).symm
  unfold Cert.Sage.mm
  rw [iblk3_0_apply V c t r q p hp, iblk3_3_apply V c t q]
  refine congrArg (fun s => s + _ + _) (Finset.sum_congr rfl fun k _ => ?_)
  rw [iblk3_1_apply V c t r k p hp, iblk3_2_apply V c t k q]

/-- Row p of the output array is in the block of point p / 5000. -/
theorem cover3 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, e4, e5⟩ := idx3 t
  refine ⟨t, flush3_4 t, ?_⟩
  show i ∈ ((View.whole main_v56).slice (win3_4.rect t)).set
  rw [View.set_slice_whole, Rect.mem_set_unit]
  intro a
  match a with
  | ⟨0, _⟩ => show win3_4.index t (0 : Fin 2) * 5000 ≤ (i 0).val ∧ (i 0).val < win3_4.index t (0 : Fin 2) * 5000 + 5000; rw [e4, ht]; omega
  | ⟨1, _⟩ => show win3_4.index t (1 : Fin 2) * 64 ≤ (i 1).val ∧ (i 1).val < win3_4.index t (1 : Fin 2) * 64 + 64; rw [e5]; omega

/-- After the region, its output array holds the last layer of the four input arrays as the region found them. -/
theorem region3_value : (Gen.dat3 (F := Ideal) V c).arrAt 4 cfg3.N
    = (Cert.Sage.layerLast (V c (Pipeline.arrRef spec3 0) : S50000x64.Idx → EReal) (V c (Pipeline.arrRef spec3 1) : S50000x128.Idx → EReal)
        (V c (Pipeline.arrRef spec3 2) : S128x64.Idx → EReal) (V c (Pipeline.arrRef spec3 3) : S1x64.Idx → EReal) : S50000x64.Idx → EReal) :=
  (dat3 V c).arrAt_eq_of_cover 4 (G3 V c) (fun t _ => flushed3_eq V c t) cover3

end Cert.KernelIdeal.RegionVal

end
-- ==== Proof.SageNet.lean ====
/-
  The network's arrays as functions of the launch arrays, the edge index arrays and the divisor: the two hidden arrays
  and the output embedding in its two orders — multiply by the left weight matrix and then aggregate 64 columns, or
  aggregate 128 columns and then apply the layer.
-/
import proofs.«145741_j55937654063333_2_alg».proof.Proof.SageHost
import proofs.«145741_j55937654063333_2_alg».proof.Proof.LibSageSpec

noncomputable section

namespace Cert.Sage

open Cert.ReferenceIdeal Cert.ReferenceIdeal.Gen Cert.ReferenceIdeal.Read Idealize.ShloMosaic Idealize.ShloMosaic.TcCoe
open Idealize.ShloMosaic.ValueIdx

section
variable (a0 : Mat 50000 64) (gi si : IVec S800000x1 32) (d : Vec1 50000)
  (a3 a4 : Mat 64 128) (a5 : Vec1 128) (a6 a7 : Mat 128 128) (a8 : Vec1 128) (a9 a10 : Mat 128 64) (a11 : Vec1 64)

/-- The first hidden array: the positive part of layer 1 on the aggregated input. -/
def hid1 : Mat 50000 128 :=
  relu (layer (mean64 (F := Ideal) a0 gi si (over64 (F := Ideal) d)) a0 a3 a4 (rowOf a5))

/-- The second hidden array. -/
def hid2 : Mat 50000 128 :=
  relu (layer (mean128 (F := Ideal) (hid1 a0 gi si d a3 a4 a5) gi si (over128 (F := Ideal) d)) (hid1 a0 gi si d a3 a4 a5) a6 a7 (rowOf a8))

/-- The output embedding the kernel's way: project, aggregate, then add. -/
def outProjFirst : Mat 50000 64 :=
  layerLast (mean64 (F := Ideal) (proj (hid2 a0 gi si d a3 a4 a5 a6 a7 a8) a9) gi si (over64 (F := Ideal) d))
    (hid2 a0 gi si d a3 a4 a5 a6 a7 a8) a10 (rowOf a11)

/-- The output embedding the reference's way: aggregate, then the layer. -/
def outAggFirst : Mat 50000 64 :=
  layer (mean128 (F := Ideal) (hid2 a0 gi si d a3 a4 a5 a6 a7 a8) gi si (over128 (F := Ideal) d))
    (hid2 a0 gi si d a3 a4 a5 a6 a7 a8) a9 a10 (rowOf a11)

end

end Cert.Sage

end
-- ==== Proof.Chain.lean ====
/-
  The kernel-side program's result, read back through its eight segments.

  The buffer contents at the segment boundaries are a fold from the launch memory: a stretch of host operations writes
  its results and keeps every other buffer, a region writes its output array and keeps every other buffer.  Walking the
  fold: the first stretch leaves the edge rows, the degree and the aggregated input of layer 1; region 0 leaves the
  first hidden array; the second stretch aggregates it; region 1 leaves the second hidden array; region 2 its product
  with Wl3; the third stretch aggregates that product; region 3 adds the three terms of the last layer; the last
  stretch scores the edges.  So the result is the edge score of the project-first output embedding of the launch
  arrays.
-/
import proofs.«145741_j55937654063333_2_alg».proof.Proof.Gen.KernelIdeal.Frame
import proofs.«145741_j55937654063333_2_alg».proof.Proof.KernelHost
import proofs.«145741_j55937654063333_2_alg».proof.Proof.Region0
import proofs.«145741_j55937654063333_2_alg».proof.Proof.Region1
import proofs.«145741_j55937654063333_2_alg».proof.Proof.Region2
import proofs.«145741_j55937654063333_2_alg».proof.Proof.Region3
import proofs.«145741_j55937654063333_2_alg».proof.Proof.SageNet

noncomputable section

namespace Cert.KernelIdeal.ChainVal

open Cert.KernelIdeal Cert.KernelIdeal.Gen Cert.KernelIdeal.HostVal Cert.KernelIdeal.RegionVal
open Idealize.ShloMosaic Idealize.ShloMosaic.TcCoe Idealize.SL.Sem
open Cert.Sage Cert.ReferenceIdeal.Read

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The gather indices of the edges' source nodes. -/
abbrev gi : IVec Cert.ReferenceIdeal.S800000x1 32 := gidx (F := Ideal) (val_main_v1 (F := Ideal) (arg m c main_arg1))
/-- The scatter indices of the edges' target nodes. -/
abbrev si : IVec Cert.ReferenceIdeal.S800000x1 32 := sidx (F := Ideal) (val_main_v3 (F := Ideal) (arg m c main_arg1))
/-- The kernel's divisor: the integer count of arriving edges, at least one. -/
abbrev dK : Vec1 50000 := degCount (F := Ideal) (si m c)

/-- The first hidden array of the launch arrays. -/
abbrev h1 : Mat 50000 128 := hid1 (arg m c main_arg0) (gi m c) (si m c) (dK m c) (arg m c main_arg3) (arg m c main_arg4) (arg m c main_arg5)
/-- The second hidden array of the launch arrays. -/
abbrev h2 : Mat 50000 128 := hid2 (arg m c main_arg0) (gi m c) (si m c) (dK m c) (arg m c main_arg3) (arg m c main_arg4) (arg m c main_arg5)
  (arg m c main_arg6) (arg m c main_arg7) (arg m c main_arg8)

/-! ## After the first stretch -/

theorem w1_keep (b : Ref sig .tc)
    (hb : b ∈ ([main_arg0, main_arg1, main_arg2, main_arg3, main_arg4, main_arg6, main_arg7, main_arg8, main_arg9, main_arg10, main_arg11] : List (Ref sig .tc))) :
    W1 m ρ c (Proc.devRef .tc b) = arg m c b := keep0 (W0 m ρ c) b hb
theorem w1_src : W1 m ρ c (Proc.devRef .tc main_v1) = val_main_v1 (F := Ideal) (arg m c main_arg1) := h0_src (W0 m ρ c)
theorem w1_tgt : W1 m ρ c (Proc.devRef .tc main_v3) = val_main_v3 (F := Ideal) (arg m c main_arg1) := h0_tgt (W0 m ρ c)
theorem w1_deg : W1 m ρ c (Proc.devRef .tc main_v10) = dK m c := h0_deg (W0 m ρ c)
theorem w1_mean : W1 m ρ c (Proc.devRef .tc main_v23)
    = mean64 (F := Ideal) (arg m c main_arg0) (gi m c) (si m c) (over64 (F := Ideal) (dK m c)) := h0_mean (W0 m ρ c)
theorem w1_bias : (W1 m ρ c (Proc.devRef .tc main_v24) : Mat 1 128) = rowOf (arg m c main_arg5) :=
  (h0_bias (W0 m ρ c)).trans (bias_row128 _)

/-! ## After region 0 -/

theorem w2_keep (b : Ref sig .tc) (hb : ∀ w, Pipeline.arrRef spec0 w ≠ b) :
    W2 m ρ c (Proc.devRef .tc b) = W1 m ρ c (Proc.devRef .tc b) := W2_of_ne m ρ c b hb

theorem w2_h1 : (W2 m ρ c (Proc.devRef .tc main_v25) : Mat 50000 128) = h1 m c := by
  refine (W2_arr m ρ c 5).trans ((region0_value (V1 m ρ) c).trans ?_)
  show relu (layer (W1 m ρ c (Proc.devRef .tc main_v23)) (W1 m ρ c (Proc.devRef .tc main_arg0))
    (W1 m ρ c (Proc.devRef .tc main_arg3)) (W1 m ρ c (Proc.devRef .tc main_arg4)) (W1 m ρ c (Proc.devRef .tc main_v24))) = _
  rw [w1_mean, w1_keep m ρ c main_arg0 (by decide), w1_keep m ρ c main_arg3 (by decide), w1_keep m ρ c main_arg4 (by decide), w1_bias]
  rfl

/-! ## After the second stretch -/

theorem w3_mean : W3 m ρ c (Proc.devRef .tc main_v38)
    = mean128 (F := Ideal) (h1 m c) (gi m c) (si m c) (over128 (F := Ideal) (dK m c)) := by
  refine (h1_mean (W2 m ρ c)).trans ?_
  rw [w2_h1, w2_keep m ρ c main_v1 (by decide), w2_keep m ρ c main_v3 (by decide), w2_keep m ρ c main_v10 (by decide),
    w1_src, w1_tgt, w1_deg]

theorem w3_bias : (W3 m ρ c (Proc.devRef .tc main_v39) : Mat 1 128) = rowOf (arg m c main_arg8) := by
  refine ((h1_bias (W2 m ρ c)).trans ?_).trans (bias_row128 _)
  rw [w2_keep m ρ c main_arg8 (by decide), w1_keep m ρ c main_arg8 (by decide)]

theorem w3_keep (b : Ref sig .tc)
    (hb : b ∈ ([main_v1, main_v3, main_v10, main_v25, main_arg2, main_arg6, main_arg7, main_arg9, main_arg10, main_arg11] : List (Ref sig .tc))) :
    W3 m ρ c (Proc.devRef .tc b) = W2 m ρ c (Proc.devRef .tc b) := keep1 (W2 m ρ c) b hb

/-! ## After region 1 -/

theorem w4_keep (b : Ref sig .tc) (hb : ∀ w, Pipeline.arrRef spec1 w ≠ b) :
    W4 m ρ c (Proc.devRef .tc b) = W3 m ρ c (Proc.devRef .tc b) := W4_of_ne m ρ c b hb

theorem w4_h2 : (W4 m ρ c (Proc.devRef .tc main_v40) : Mat 50000 128) = h2 m c := by
  refine (W4_arr m ρ c 5).trans ((region1_value (V3 m ρ) c).trans ?_)
  show relu (layer (W3 m ρ c (Proc.devRef .tc main_v38)) (W3 m ρ c (Proc.devRef .tc main_v25))
    (W3 m ρ c (Proc.devRef .tc main_arg6)) (W3 m ρ c (Proc.devRef .tc main_arg7)) (W3 m ρ c (Proc.devRef .tc main_v39))) = _
  rw [w3_mean, w3_bias, w3_keep m ρ c main_v25 (by decide), w2_h1,
    w3_keep m ρ c main_arg6 (by decide), w2_keep m ρ c main_arg6 (by decide), w1_keep m ρ c main_arg6 (by decide),
    w3_keep m ρ c main_arg7 (by decide), w2_keep m ρ c main_arg7 (by decide), w1_keep m ρ c main_arg7 (by decide)]
  rfl

/-- The edge rows and the degree are still there after region 1. -/
theorem w4_src : W4 m ρ c (Proc.devRef .tc main_v1) = val_main_v1 (F := Ideal) (arg m c main_arg1) := by
  rw [w4_keep m ρ c main_v1 (by decide), w3_keep m ρ c main_v1 (by decide), w2_keep m ρ c main_v1 (by decide), w1_src]
theorem w4_tgt : W4 m ρ c (Proc.devRef .tc main_v3) = val_main_v3 (F := Ideal) (arg m c main_arg1) := by
  rw [w4_keep m ρ c main_v3 (by decide), w3_keep m ρ c main_v3 (by decide), w2_keep m ρ c main_v3 (by decide), w1_tgt]
theorem w4_deg : W4 m ρ c (Proc.devRef .tc main_v10) = dK m c := by
  rw [w4_keep m ρ c main_v10 (by decide), w3_keep m ρ c main_v10 (by decide), w2_keep m ρ c main_v10 (by decide), w1_deg]
theorem w4_arg2 : W4 m ρ c (Proc.devRef .tc main_arg2) = arg m c main_arg2 := by
  rw [w4_keep m ρ c main_arg2 (by decide), w3_keep m ρ c main_arg2 (by decide), w2_keep m ρ c main_arg2 (by decide), w1_keep m ρ c main_arg2 (by decide)]
theorem w4_arg9 : W4 m ρ c (Proc.devRef .tc main_arg9) = arg m c main_arg9 := by
  rw [w4_keep m ρ c main_arg9 (by decide), w3_keep m ρ c main_arg9 (by decide), w2_keep m ρ c main_arg9 (by decide), w1_keep m ρ c main_arg9 (by decide)]
theorem w4_arg10 : W4 m ρ c (Proc.devRef .tc main_arg10) = arg m c main_arg10 := by
  rw [w4_keep m ρ c main_arg10 (by decide), w3_keep m ρ c main_arg10 (by decide), w2_keep m ρ c main_arg10 (by decide), w1_keep m ρ c main_arg10 (by decide)]
theorem w4_arg11 : W4 m ρ c (Proc.devRef .tc main_arg11) = arg m c main_arg11 := by
  rw [w4_keep m ρ c main_arg11 (by decide), w3_keep m ρ c main_arg11 (by decide), w2_keep m ρ c main_arg11 (by decide), w1_keep m ρ c main_arg11 (by decide)]

/-! ## After region 2 -/

theorem w5_keep (b : Ref sig .tc) (hb : ∀ w, Pipeline.arrRef spec2 w ≠ b) :
    W5 m ρ c (Proc.devRef .tc b) = W4 m ρ c (Proc.devRef .tc b) := W5_of_ne m ρ c b hb

theorem w5_p : (W5 m ρ c (Proc.devRef .tc main_v41) : Mat 50000 64) = proj (h2 m c) (arg m c main_arg9) := by
  refine (W5_arr m ρ c 2).trans ((region2_value (V4 m ρ) c).trans ?_)
  show proj (W4 m ρ c (Proc.devRef .tc main_v40)) (W4 m ρ c (Proc.devRef .tc main_arg9)) = _
  rw [w4_h2, w4_arg9]

/-- Region 2 reads the second hidden array and leaves it in place. -/
theorem w5_h2 : (W5 m ρ c (Proc.devRef .tc main_v40) : Mat 50000 128) = h2 m c :=
  ((W5_arr m ρ c 0).trans (((dat2 (V4 m ρ) c).arrAt_in 0 rfl _).trans (A_eq2 (V4 m ρ) c 0))).trans (w4_h2 m ρ c)

/-! ## After the third stretch -/

theorem w6_mean : W6 m ρ c (Proc.devRef .tc main_v54)
    = mean64 (F := Ideal) (proj (h2 m c) (arg m c main_arg9)) (gi m c) (si m c) (over64 (F := Ideal) (dK m c)) := by
  refine (h3_mean (W5 m ρ c)).trans ?_
  rw [w5_p, w5_keep m ρ c main_v1 (by decide), w5_keep m ρ c main_v3 (by decide), w5_keep m ρ c main_v10 (by decide),
    w4_src, w4_tgt, w4_deg]

theorem w6_bias : (W6 m ρ c (Proc.devRef .tc main_v55) : Mat 1 64) = rowOf (arg m c main_arg11) := by
  refine ((h3_bias (W5 m ρ c)).trans ?_).trans (bias_row64 _)
  rw [w5_keep m ρ c main_arg11 (by decide), w4_arg11]

theorem w6_keep (b : Ref sig .tc) (hb : b ∈ ([main_v40, main_arg2, main_arg10] : List (Ref sig .tc))) :
    W6 m ρ c (Proc.devRef .tc b) = W5 m ρ c (Proc.devRef .tc b) := keep3 (W5 m ρ c) b hb

/-! ## After region 3 and the last stretch -/

theorem w7_z : (W7 m ρ c (Proc.devRef .tc main_v56) : Mat 50000 64)
    = outProjFirst (arg m c main_arg0) (gi m c) (si m c) (dK m c) (arg m c main_arg3) (arg m c main_arg4) (arg m c main_arg5)
        (arg m c main_arg6) (arg m c main_arg7) (arg m c main_arg8) (arg m c main_arg9) (arg m c main_arg10) (arg m c main_arg11) := by
  refine (W7_arr m ρ c 4).trans ((region3_value (V6 m ρ) c).trans ?_)
  show layerLast (W6 m ρ c (Proc.devRef .tc main_v54)) (W6 m ρ c (Proc.devRef .tc main_v40))
    (W6 m ρ c (Proc.devRef .tc main_arg10)) (W6 m ρ c (Proc.devRef .tc main_v55)) = _
  rw [w6_mean, w6_bias, w6_keep m ρ c main_v40 (by decide), w5_h2,
    w6_keep m ρ c main_arg10 (by decide), w5_keep m ρ c main_arg10 (by decide), w4_arg10]
  rfl

theorem w7_arg2 : W7 m ρ c (Proc.devRef .tc main_arg2) = arg m c main_arg2 := by
  rw [W7_of_ne m ρ c main_arg2 (by decide), w6_keep m ρ c main_arg2 (by decide), w5_keep m ρ c main_arg2 (by decide),
    w4_arg2]

/-- The kernel-side result: the edge score of the project-first output embedding of the launch arrays. -/
theorem result : W8 m ρ c (Proc.devRef .tc main_v76)
    = decode (F := Ideal)
        (outProjFirst (arg m c main_arg0) (gi m c) (si m c) (dK m c) (arg m c main_arg3) (arg m c main_arg4) (arg m c main_arg5)
          (arg m c main_arg6) (arg m c main_arg7) (arg m c main_arg8) (arg m c main_arg9) (arg m c main_arg10) (arg m c main_arg11))
        (arg m c main_arg2) := by
  refine (h4_out (W7 m ρ c)).trans ?_
  rw [w7_z, w7_arg2]

end Cert.KernelIdeal.ChainVal

end
-- ==== Proof.LibRowScale.lean ====
/-
  Dividing a row by a common real divisor before or after a sum of products.

  Over the extended reals with the division that multiplies by the reciprocal off zero: when every a k and every p k
  is a real number and n is a nonzero real, the sum of the products (a k / n) · p k equals the sum of the products
  a k · p k divided by n.  Everything is the coercion of a real, so the identity is the real one,
  ∑ (a k · n⁻¹) · p k = (∑ a k · p k) · n⁻¹.  Also stated: the coercion of a finite real sum is the sum of the coercions.
-/
import Idealize.ShloMosaic.PureOps.Ideal
import Mathlib

namespace Cert.LibRowScale

open Idealize.ShloMosaic

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- With real entries and a nonzero real divisor, dividing every a k before the products are summed gives the same
    as dividing the finished sum. -/
theorem sum_div_mul_eq_div_sum {ι : Type} [Fintype ι] (a p : ι → EReal) (ha : ∀ k, ∃ r : ℝ, a k = (r : EReal))
    (hp : ∀ k, ∃ r : ℝ, p k = (r : EReal)) (n : ℝ) (hn : n ≠ 0) :
    ∑ k, Ideal.div (a k) (n : EReal) * p k = Ideal.div (∑ k, a k * p k) (n : EReal) := by
  choose a' ha' using ha
  choose p' hp' using hp
  have hl : ∀ k, Ideal.div (a k) (n : EReal) * p k = ((a' k * (1 / n) * p' k : ℝ) : EReal) := fun k => by
    rw [Ideal.div_coe hn, ha', hp', ← EReal.coe_mul, ← EReal.coe_mul]
  have hr : ∀ k, a k * p k = ((a' k * p' k : ℝ) : EReal) := fun k => by
    rw [ha', hp', ← EReal.coe_mul]
  rw [Ideal.div_coe hn]
  simp only [hl, hr]
  rw [← coe_sum, ← coe_sum, ← EReal.coe_mul, Finset.sum_mul]
  congr 1
  exact Finset.sum_congr rfl (fun k _ => by ring)

end Cert.LibRowScale
-- ==== Proof.LibSageAlgebra.lean ====
/-
  Real-valuedness and the aggregation identities of the mean-aggregation network, on the extended reals.

  A family of extended reals is real when every member is the coercion of a real number; a divisor family is real and
  nowhere zero. Matrix products, layers, positive parts and mean aggregations of real families are real. Since the
  extended reals do not distribute in general, the two identities below are proved by passing to the reals:
  aggregating and then multiplying by a weight matrix equals multiplying every row first and then aggregating, and hence
  the last layer written with the already multiplied aggregate is the ordinary layer on the aggregated input.
-/
import proofs.«145741_j55937654063333_2_alg».proof.Proof.LibSageSpec
import proofs.«145741_j55937654063333_2_alg».proof.Proof.LibRowScale
import Mathlib

noncomputable section

open scoped BigOperators

namespace Cert.Sage

open Idealize.ShloMosaic Idealize.ShloMosaic.ValueIdx

/-- Every member of the family is the coercion of a real number. -/
def IsReal {ι : Type} (f : ι → EReal) : Prop := ∀ j, ∃ r : ℝ, f j = (r : EReal)

/-- Every member of the family is the coercion of a nonzero real number. -/
def Divisor {N : Nat} (d : Fin N → EReal) : Prop := ∀ p, ∃ r : ℝ, r ≠ 0 ∧ d p = (r : EReal)

variable {N K C R : Nat} {E : Fin N → Finset (Fin R)} {g : Fin R → Fin N} {d : Fin N → EReal}

/-- A finite sum of coerced reals is a coerced real. -/
theorem sum_real {ι : Type} (s : Finset ι) {f : ι → EReal} (hf : ∀ k, ∃ r : ℝ, f k = (r : EReal)) :
    ∃ r : ℝ, ∑ k ∈ s, f k = (r : EReal) := by
  choose f' hf' using hf
  exact ⟨∑ k ∈ s, f' k, by rw [Cert.LibRowScale.coe_sum]; exact Finset.sum_congr rfl (fun k _ => hf' k)⟩

/-- A two-coordinate index is a pair of coordinates. -/
theorem exists_ix2 {n0 n1 : Nat} (j : (⟨2, ![n0, n1]⟩ : Shape).Idx) : ∃ (p : Fin n0) (q : Fin n1), j = ix2 p q :=
  ⟨j 0, j 1, ValueIdx.eq_ix2 j⟩

/-- The coercion of the larger of two reals is the larger of the two coercions. -/
theorem coe_max (a b : ℝ) : ((max a b : ℝ) : EReal) = max (a : EReal) (b : EReal) :=
  EReal.coe_strictMono.monotone.map_max

theorem mm_real {x : Mat N K} {W : Mat K C} (hx : IsReal x) (hW : IsReal W) (p : Fin N) (q : Fin C) :
    ∃ r : ℝ, mm x W p q = (r : EReal) := by
  unfold mm
  exact sum_real _ (fun k => by
    obtain ⟨a, ha⟩ := hx (ix2 p k)
    obtain ⟨b, hb⟩ := hW (ix2 k q)
    exact ⟨a * b, by rw [ha, hb, ← EReal.coe_mul]⟩)

theorem proj_real {x : Mat N K} {W : Mat K C} (hx : IsReal x) (hW : IsReal W) : IsReal (proj x W) := by
  intro j
  obtain ⟨p, q, rfl⟩ := exists_ix2 j
  rw [proj_apply]
  exact mm_real hx hW p q

theorem layer_real {mean x : Mat N K} {Wl Wr : Mat K C} {b : Mat 1 C} (hm : IsReal mean) (hx : IsReal x)
    (hl : IsReal Wl) (hr : IsReal Wr) (hb : IsReal b) : IsReal (layer mean x Wl Wr b) := by
  intro j
  obtain ⟨p, q, rfl⟩ := exists_ix2 j
  rw [layer_apply]
  obtain ⟨a, ha⟩ := mm_real hm hl p q
  obtain ⟨c, hc⟩ := mm_real hx hr p q
  obtain ⟨t, ht⟩ := hb (ix2 0 q)
  exact ⟨a + c + t, by rw [ha, hc, ht, ← EReal.coe_add, ← EReal.coe_add]⟩

theorem relu_real {h : Mat N C} (hh : IsReal h) : IsReal (relu h) := by
  intro j
  obtain ⟨r, hr⟩ := hh j
  exact ⟨max r 0, by rw [relu_apply, hr, ← EReal.coe_zero, ← coe_max]⟩

theorem rowOf_real {b : Vec1 C} (hb : IsReal b) : IsReal (rowOf b) := by
  intro j
  obtain ⟨p, q, rfl⟩ := exists_ix2 j
  obtain rfl : p = 0 := Subsingleton.elim _ _
  rw [rowOf_apply]
  exact hb (ix1 q)

theorem agg_real {h : Mat N C} (hh : IsReal h) (hd : Divisor d) : IsReal (agg E g d h) := by
  intro j
  obtain ⟨p, q, rfl⟩ := exists_ix2 j
  obtain ⟨n, hn, hdn⟩ := hd p
  obtain ⟨s, hs⟩ := sum_real (E p) (fun e => hh (ix2 (g e) q))
  exact ⟨s * (1 / n), by rw [agg_apply, hdn, Ideal.div_coe hn, hs, ← EReal.coe_mul]⟩

/-- Aggregating rows and then multiplying by W is multiplying every row by W and then aggregating. -/
theorem mm_agg {h : Mat N K} {W : Mat K C} (hh : IsReal h) (hW : IsReal W) (hd : Divisor d) (p : Fin N) (q : Fin C) :
    mm (agg E g d h) W p q = agg E g d (proj h W) (ix2 p q) := by
  obtain ⟨n, hn, hdn⟩ := hd p
  have h1 : mm (agg E g d h) W p q
      = ∑ k : Fin K, Ideal.div (∑ e ∈ E p, h (ix2 (g e) k)) (n : EReal) * W (ix2 k q) := by
    unfold mm
    exact Finset.sum_congr rfl (fun k _ => by rw [agg_apply, hdn])
  have h2 : agg E g d (proj h W) (ix2 p q)
      = Ideal.div (∑ e ∈ E p, ∑ k : Fin K, h (ix2 (g e) k) * W (ix2 k q)) (n : EReal) := by
    rw [agg_apply, hdn]
    refine congrArg (fun t => Ideal.div t (n : EReal)) ?_
    exact Finset.sum_congr rfl (fun e _ => by rw [proj_apply]; rfl)
  rw [h1, h2, Cert.LibRowScale.sum_div_mul_eq_div_sum _ _ (fun k => sum_real (E p) (fun e => hh (ix2 (g e) k)))
    (fun k => hW (ix2 k q)) n hn]
  refine congrArg (fun t => Ideal.div t (n : EReal)) ?_
  choose h' hh' using hh
  choose W' hW' using hW
  have hl : ∀ k : Fin K, (∑ e ∈ E p, h (ix2 (g e) k)) * W (ix2 k q)
      = ((∑ e ∈ E p, h' (ix2 (g e) k) * W' (ix2 k q) : ℝ) : EReal) := fun k => by
    simp only [hh', hW']
    rw [← Cert.LibRowScale.coe_sum, ← EReal.coe_mul, Finset.sum_mul]
  have hr : ∀ e : Fin R, ∑ k : Fin K, h (ix2 (g e) k) * W (ix2 k q)
      = ((∑ k : Fin K, h' (ix2 (g e) k) * W' (ix2 k q) : ℝ) : EReal) := fun e => by
    simp only [hh', hW']
    rw [Cert.LibRowScale.coe_sum]
    exact Finset.sum_congr rfl (fun k _ => by rw [EReal.coe_mul])
  simp only [hl, hr]
  rw [← Cert.LibRowScale.coe_sum, ← Cert.LibRowScale.coe_sum, Finset.sum_comm]

/-- The last layer with the aggregate already multiplied out is the ordinary layer on the aggregated input. -/
theorem layerLast_agg {h : Mat N K} {Wl Wr : Mat K C} {b : Mat 1 C} (hh : IsReal h) (hl : IsReal Wl) (hd : Divisor d) :
    layerLast (agg E g d (proj h Wl)) h Wr b = layer (agg E g d h) h Wl Wr b := by
  funext j
  obtain ⟨p, q, rfl⟩ := exists_ix2 j
  rw [layerLast_apply, layer_apply, mm_agg hh hl hd, add_comm (mm h Wr p q)]

end Cert.Sage

end
-- ==== Proof.LibGatherRows.lean ====
/-
  jnp's row gather `x[idx]` read at an index. The gather takes whole rows of an `[N, C]` table at start indices `[R, 1]`:
  result row `r` is the table's row `idx[r, 0]`, read as a signed integer and clamped into `[0, N − 1]`; its column `q`
  is the row's column `q`. Stated over any extents, for the dimension numbers of that gather.
-/
import Idealize.ShloMosaic.Lib.ValueIdx

namespace Idealize.ShloMosaic.GatherRows

open Idealize.ShloMosaic Idealize.ShloMosaic.ValueIdx

variable {α : Type}

/-- The dimension numbers of a gather of whole rows: the result's axis 1 is the offset axis, the table's axis 0 is collapsed and
    indexed by the one component of the start index, which sits on axis 1 of the start indices. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, q)`: the table at row `idx[r, 0]` (signed, clamped into the table) and column `q`. -/
theorem gatherRows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N C R wf) x idx (ix2 r q)
      = x (ix2 ⟨min (idx (ix2 r (0 : Fin 1))).toInt.toNat (N - 1), by omega⟩ q) := by
  unfold Host.gather
  congr 1
  funext a
  refine Fin.ext ?_
  show (rowDims N C R wf).start (ix2 r q) idx a + (rowDims N C R wf).batchCoord (ix2 r q) a
      + (rowDims N C R wf).offCoord (ix2 r q) a = _
  rw [GatherDims.batchCoord_eq_zero _ _ _ List.not_mem_nil, Nat.add_zero]
  match a with
  | ⟨0, _⟩ =>
    show (rowDims N C R wf).start (ix2 r q) idx (0 : Fin 2) + (rowDims N C R wf).offCoord (ix2 r q) (0 : Fin 2) = _
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hsi : (rowDims N C R wf).siIdx (ix2 r q) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r q) idx (1 : Fin 2) + (rowDims N C R wf).offCoord (ix2 r q) (1 : Fin 2) = _
    unfold GatherDims.start
    rw [dif_neg (show (1 : Fin 2) ∉ (rowDims N C R wf).startIndexMap from by
      intro h; exact Nat.one_ne_zero (congrArg Fin.val (List.mem_singleton.mp h))), Nat.zero_add]
    rfl

end Idealize.ShloMosaic.GatherRows
-- ==== Proof.LibScatterRows.lean ====
/-
  A scatter-add of whole rows read at an index (jax's segment_sum). The scatter adds row `e` of an `[R, C]` array of
  updates into row `idx[e, 0]` of an `[N, C]` operand, the start index read as a signed integer and not clamped: an
  update whose row falls outside `[0, N)` is dropped. So update position `(e, c)` lands at operand position `(p, q)`
  exactly when `idx[e, 0] = p` and `c = q` (`resultIdx_rows`), and on the extended reals the result at `(p, q)` is the
  operand there plus the sum of `u (e, q)` over the rows `e` whose start index is `p` (`scatterAddRows_apply`).
  Stated over any extents, for the dimension numbers of that scatter.
-/
import Idealize.ShloMosaic.Lib.ValueIdx
import Idealize.ShloMosaic.PureOps.Ideal
import Mathlib

noncomputable section

open scoped BigOperators

namespace Idealize.ShloMosaic.ScatterRows

open Idealize.ShloMosaic Idealize.ShloMosaic.ValueIdx

/-- The dimension numbers of a scatter of whole rows: the updates' axis 1 is the window axis, the operand's axis 0 is
    inserted and indexed by the one component of the start index, which sits on axis 1 of the scatter indices. -/
abbrev rowDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  { updateWindowDims := [1], insertedWindowDims := [0], scatterDimsToOperandDims := [0], indexVectorDim := 1, wf := wf }

variable {N C R w : Nat} (wf : ScatterDims.WF ⟨2, ![N, C]⟩ ⟨2, ![R, 1]⟩ ⟨2, ![R, C]⟩ [1] [0] [0] 1)

/-- On the operand's row axis the window starts at the start index of the update's row, read signed. -/
theorem start_row (idx : IVec ⟨2, ![R, 1]⟩ w) (e : Fin R) (c : Fin C) :
    (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis the window starts at 0. -/
theorem start_col (idx : IVec ⟨2, ![R, 1]⟩ w) (e : Fin R) (c : Fin C) :
    (rowDims N C R wf).start (ix2 e c) idx (1 : Fin 2) = 0 := by
  unfold ScatterDims.start
  rw [dif_neg (show (1 : Fin 2) ∉ (rowDims N C R wf).scatterDimsToOperandDims from by
    intro h; exact Nat.one_ne_zero (congrArg Fin.val (List.mem_singleton.mp h)))]

/-- The window has no extent along the operand's row axis. -/
theorem window_row (e : Fin R) (c : Fin C) : (rowDims N C R wf).window (ix2 e c) (0 : Fin 2) = 0 := rfl

/-- Along the operand's column axis the window coordinate is the update's column. -/
theorem window_col (e : Fin R) (c : Fin C) : (rowDims N C R wf).window (ix2 e c) (1 : Fin 2) = c.val := rfl

/-- Update position `(e, c)` lands at operand position `(p, q)` exactly when the start index of row `e`, read signed,
    is `p`, and the columns agree. -/
theorem resultIdx_rows (idx : IVec ⟨2, ![R, 1]⟩ w) (e : Fin R) (c : Fin C) (p : Fin N) (q : Fin C) :
    (rowDims N C R wf).resultIdx? (ix2 e c) idx = some (ix2 p q)
      ↔ (idx (ix2 e (0 : Fin 1))).toInt = (p.val : ℤ) ∧ c = q := by
  have hs0 := start_row wf idx e c
  have hs1 := start_col wf idx e c
  have hw0 := window_row wf e c
  have hw1 := window_col wf e c
  have hN : (⟨2, ![N, C]⟩ : Shape).size (0 : Fin 2) = N := rfl
  have hC : (⟨2, ![N, C]⟩ : Shape).size (1 : Fin 2) = C := rfl
  unfold ScatterDims.resultIdx?
  constructor
  · intro h
    split at h
    · rename_i hin
      have hf := Option.some.inj h
      have h0 := congrArg Fin.val (congrFun hf (0 : Fin 2))
      have h1 := congrArg Fin.val (congrFun hf (1 : Fin 2))
      have hin0 := hin (0 : Fin 2)
      have hin1 := hin (1 : Fin 2)
      simp only [hs0, hs1, hw0, hw1] at h0 h1 hin0 hin1
      have h0' : ((idx (ix2 e (0 : Fin 1))).toInt + ((0 : ℕ) : ℤ)).toNat = p.val := h0
      have h1' : ((0 : ℤ) + ((c.val : ℕ) : ℤ)).toNat = q.val := h1
      refine ⟨by omega, Fin.ext (by omega)⟩
    · exact absurd h (by simp)
  · rintro ⟨hp, rfl⟩
    have hin : ∀ a : Fin 2, 0 ≤ (rowDims N C R wf).start (ix2 e c) idx a + ((rowDims N C R wf).window (ix2 e c) a : ℤ)
        ∧ (rowDims N C R wf).start (ix2 e c) idx a + ((rowDims N C R wf).window (ix2 e c) a : ℤ)
          < ((⟨2, ![N, C]⟩ : Shape).size a : ℤ) := by
      intro a
      match a with
      | ⟨0, _⟩ =>
        show 0 ≤ (rowDims N C R wf).start (ix2 e c) idx (0 : Fin 2) + ((rowDims N C R wf).window (ix2 e c) (0 : Fin 2) : ℤ)
          ∧ (rowDims N C R wf).start (ix2 e c) idx (0 : Fin 2) + ((rowDims N C R wf).window (ix2 e c) (0 : Fin 2) : ℤ)
            < ((⟨2, ![N, C]⟩ : Shape).size (0 : Fin 2) : ℤ)
        rw [hs0, hw0, hN, hp]
        have := p.isLt
        omega
      | ⟨1, _⟩ =>
        show 0 ≤ (rowDims N C R wf).start (ix2 e c) idx (1 : Fin 2) + ((rowDims N C R wf).window (ix2 e c) (1 : Fin 2) : ℤ)
          ∧ (rowDims N C R wf).start (ix2 e c) idx (1 : Fin 2) + ((rowDims N C R wf).window (ix2 e c) (1 : Fin 2) : ℤ)
            < ((⟨2, ![N, C]⟩ : Shape).size (1 : Fin 2) : ℤ)
        rw [hs1, hw1, hC]
        have := c.isLt
        omega
    rw [dif_pos hin]
    congr 1
    funext a
    refine Fin.ext ?_
    match a with
    | ⟨0, _⟩ =>
      show ((rowDims N C R wf).start (ix2 e c) idx (0 : Fin 2) + ((rowDims N C R wf).window (ix2 e c) (0 : Fin 2) : ℤ)).toNat = p.val
      rw [hs0, hw0, hp]
      omega
    | ⟨1, _⟩ =>
      show ((rowDims N C R wf).start (ix2 e c) idx (1 : Fin 2) + ((rowDims N C R wf).window (ix2 e c) (1 : Fin 2) : ℤ)).toNat = c.val
      rw [hs1, hw1]
      omega

/-- The scatter-add of rows at `(p, q)`: the operand there plus the sum, over the update rows whose start index is `p`,
    of the update at that row and column `q`. -/
theorem scatterAddRows_apply {φ : FTy} (x : FVec Ideal ⟨2, ![N, C]⟩ φ) (idx : IVec ⟨2, ![R, 1]⟩ w)
    (u : FVec Ideal ⟨2, ![R, C]⟩ φ) (p : Fin N) (q : Fin C) :
    Host.scatterAdd (F := Ideal) (rowDims N C R wf) x idx u (ix2 p q)
      = x (ix2 p q) + ∑ e ∈ Finset.univ.filter (fun e : Fin R => (idx (ix2 e (0 : Fin 1))).toInt = (p.val : ℤ)),
          u (ix2 e q) := by
  show x (ix2 p q) + ∑ j ∈ Finset.univ.filter (fun j => (rowDims N C R wf).resultIdx? j idx = some (ix2 p q)), u j = _
  congr 1
  have key : ∀ j : (⟨2, ![R, C]⟩ : Shape).Idx, (rowDims N C R wf).resultIdx? j idx = some (ix2 p q)
      ↔ (idx (ix2 (j 0) (0 : Fin 1))).toInt = (p.val : ℤ) ∧ j 1 = q := fun j => by
    conv_lhs => rw [eq_ix2 j]
    exact resultIdx_rows wf idx (j 0) (j 1) p q
  refine Finset.sum_nbij' (fun j => j 0) (fun e => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (resultIdx_rows wf idx e q p q).2 ⟨(Finset.mem_filter.1 he).2, rfl⟩⟩
  · intro j hj
    obtain ⟨-, rfl⟩ := (key j).1 (Finset.mem_filter.1 hj).2
    exact (eq_ix2 j).symm
  · intro e he
    rfl
  · intro j hj
    obtain ⟨-, rfl⟩ := (key j).1 (Finset.mem_filter.1 hj).2
    exact congrArg u (eq_ix2 j)

end Idealize.ShloMosaic.ScatterRows

end
-- ==== Proof.LibScatterCount.lean ====
/-
  Counting by scatter-add: integers against floats.

  A scatter-add of ones into an array of zeros counts, at each element, the update positions whose result index is that
  element.  Done in wrapping 32-bit integers and then read as a signed integer and converted to a float, the count is
  exact as long as there are fewer than 2^31 update positions; done in floats on the extended reals it is the exact
  sum of that many ones.  So the two agree (`sitofp_scatter_ones`).  The steps: the integer scatter is a left fold
  over the update positions in row-major order, which at one element adds one per matching position
  (`foldl_scatter_ones_apply`); counting along the row-major numbering is counting over the index set
  (`countP_finRange_rowMajor`); a natural number below 2^31 survives the 32-bit signed reading
  (`toInt_ofNat_of_lt`); and a sum of ones over a finite set is its size (`sum_one_ereal`).
  Nothing here depends on particular shapes or dimension numbers.
-/
import Idealize.ShloMosaic.PureOps.Ideal
import Idealize.ShloMosaic.PureOps.ShapeOps
import Idealize.ShloMosaic.PureOps.Contract
import Idealize.ShloMosaic.PureOps.Vector
noncomputable section
namespace Cert.Lib
open Idealize.ShloMosaic

/-- Adding one and then the 32-bit numeral of `c` is adding the numeral of `c + 1`. -/
theorem add_one_add_ofNat (x : BitVec 32) (c : Nat) :
    x + 1#32 + BitVec.ofNat 32 c = x + BitVec.ofNat 32 (c + 1) := by
  rw [BitVec.add_assoc, Nat.add_comm c 1, BitVec.ofNat_add]

/-- The left fold of the scatter step whose body is wrapping addition and whose every update is one,
    over any list of update positions: at each element, the start value plus the (wrapping) number of
    listed positions whose result index is that element. -/
theorem foldl_scatter_ones_apply {s si u : Shape} {w : Nat} (d : ScatterDims s si u) (idx : IVec si w)
    (L : List (Fin u.numel)) (x : s.Idx → BitVec 32) (i : s.Idx) :
    (L.foldl (fun r n =>
        match d.resultIdx? (u.rowMajor.symm n) idx with
        | some i0 => fun i' => if i' = i0 then IntOp.addi (r i0) ((fun _ => 1#32 : u.Idx → BitVec 32) (u.rowMajor.symm n)) else r i'
        | none => r) x) i
      = x i + BitVec.ofNat 32 (L.countP fun n => decide (d.resultIdx? (u.rowMajor.symm n) idx = some i)) := by
  induction L generalizing x with
  | nil => simp
  | cons n L ih =>
    rw [List.foldl_cons, ih, List.countP_cons]
    cases h : d.resultIdx? (u.rowMajor.symm n) idx with
    | none => simp
    | some i0 =>
      by_cases hi : i = i0
      · subst hi
        simp only [if_true, decide_true, IntOp.addi]
        exact add_one_add_ofNat _ _
      · have hne : ¬ (some i0 = some i) := fun e => hi (Option.some.inj e).symm
        simp [hi, hne]

/-- Counting a decidable predicate along the list of all positions below `N` is the size of the
    filtered universe. -/
theorem countP_finRange_eq_card (N : Nat) (q : Fin N → Prop) [DecidablePred q] :
    (List.finRange N).countP (fun n => decide (q n)) = (Finset.univ.filter q).card := by
  rw [Fin.univ_def]
  show _ = (Multiset.filter q (List.finRange N : Multiset (Fin N))).card
  rw [Multiset.filter_coe, Multiset.coe_card, List.countP_eq_length_filter]

/-- Counting a decidable predicate on a shape's indices along the row-major numbering of all its
    positions is the size of the filtered universe of indices. -/
theorem countP_finRange_rowMajor {u : Shape} (p : u.Idx → Prop) [DecidablePred p] :
    (List.finRange u.numel).countP (fun n => decide (p (u.rowMajor.symm n))) = (Finset.univ.filter p).card := by
  rw [countP_finRange_eq_card u.numel (fun n => p (u.rowMajor.symm n))]
  refine Finset.card_equiv u.rowMajor.symm fun n => ?_
  simp

/-- A natural number below `2 ^ 31`, as a 32-bit numeral read signed, is itself. -/
theorem toInt_ofNat_of_lt {c : Nat} (hc : c < 2 ^ 31) : (BitVec.ofNat 32 c).toInt = (c : Int) := by
  rw [BitVec.toInt_eq_toNat_cond, BitVec.toNat_ofNat, Nat.mod_eq_of_lt (by omega)]
  rw [if_pos (by omega)]

/-- On the extended reals a sum of ones over a finite set is its size, as a coerced real. -/
theorem sum_one_ereal {ι : Type} (S : Finset ι) : (∑ _j ∈ S, (1 : EReal)) = ((S.card : ℝ) : EReal) := by
  rw [Finset.sum_const, ← EReal.coe_one, ← EReal.coe_nsmul, nsmul_eq_mul, mul_one]

/-- Counting by a wrapping 32-bit scatter-add of ones into zeros, read as a signed integer and
    converted to a float, is on the extended reals the float scatter-add of ones into zeros,
    provided the number of updates is below `2 ^ 31`: both are, at each element, the number of
    update positions whose result index is that element. -/
theorem sitofp_scatter_ones {s si u : Shape} {w : Nat} (d : ScatterDims s si u) (idx : IVec si w) (hu : u.numel < 2 ^ 31)
    (zi : IVec s 32) (hzi : ∀ i, zi i = 0#32) (oi : IVec u 32) (hoi : ∀ j, oi j = 1#32)
    (zf : FVec Ideal s .f32) (hzf : ∀ i, zf i = 0) (of : FVec Ideal u .f32) (hof : ∀ j, of j = 1) :
    sitofp (F := Ideal) .f32 (Host.scatter d IntOp.addi zi idx oi) = Host.scatterAdd (F := Ideal) d zf idx of := by
  obtain rfl : zi = fun _ => 0#32 := funext hzi
  obtain rfl : oi = fun _ => 1#32 := funext hoi
  obtain rfl : zf = fun _ => 0 := funext hzf
  obtain rfl : of = fun _ => 1 := funext hof
  funext i
  show ((((Host.scatter d IntOp.addi (fun _ => 0#32) idx (fun _ => 1#32)) i).toInt : ℝ) : EReal)
    = (0 : EReal) + ∑ j ∈ Finset.univ.filter (fun j => d.resultIdx? j idx = some i), (1 : EReal)
  have hfold : Host.scatter d IntOp.addi (fun _ => 0#32) idx (fun _ => 1#32) i
      = 0#32 + BitVec.ofNat 32
          ((List.finRange u.numel).countP fun n => decide (d.resultIdx? (u.rowMajor.symm n) idx = some i)) :=
    foldl_scatter_ones_apply d idx (List.finRange u.numel) (fun _ => 0#32) i
  have hcount := countP_finRange_rowMajor (u := u) (fun j => d.resultIdx? j idx = some i)
  have hle : ((List.finRange u.numel).countP fun n => decide (d.resultIdx? (u.rowMajor.symm n) idx = some i)) ≤ u.numel :=
    (List.countP_le_length).trans (List.length_finRange).le
  rw [hfold, BitVec.zero_add, toInt_ofNat_of_lt (lt_of_le_of_lt hle hu), hcount, sum_one_ereal, zero_add,
    Int.cast_natCast]

end Cert.Lib
-- ==== Proof.SageOpen.lean ====
/-
  The reference's host-side mean aggregation is the abstract one.

  The reference gathers the source rows of a node table along the edges, scatter-adds them at the target nodes into
  zeros, and divides by a per-node divisor laid under every column. Read at node p and column q this is the sum, over
  the edges whose scatter index (read signed) is p, of the table entry at the edge's gathered row (its start index
  read signed and clamped into the table) and column q, divided by the divisor at p: the abstract aggregation over
  `edgesInto` and `rowOfEdge`. The divisor the reference uses is the number of arriving edges or one, whichever is
  larger: a real number that is at least one, and the same whether the edges are counted in floats or in wrapping
  32-bit integers.
-/
import proofs.«145741_j55937654063333_2_alg».proof.Proof.SageHost
import proofs.«145741_j55937654063333_2_alg».proof.Proof.LibSageSpec
import proofs.«145741_j55937654063333_2_alg».proof.Proof.LibSageAlgebra
import proofs.«145741_j55937654063333_2_alg».proof.Proof.LibGatherRows
import proofs.«145741_j55937654063333_2_alg».proof.Proof.LibScatterRows
import proofs.«145741_j55937654063333_2_alg».proof.Proof.LibScatterCount
import Idealize.ShloMosaic.Lib.IdealHost
import Idealize.ShloMosaic.Lib.Pipeline.Value
import Mathlib

noncomputable section

open scoped BigOperators

namespace Cert.Sage

open Cert.ReferenceIdeal Cert.ReferenceIdeal.Gen Cert.ReferenceIdeal.Read Idealize.ShloMosaic Idealize.ShloMosaic.ValueIdx
  Idealize.ShloMosaic.TcCoe

/-- The edges arriving at node p: those whose scatter index, read signed, is p. -/
def edgesInto (si : IVec S800000x1 32) (p : Fin 50000) : Finset (Fin 800000) :=
  Finset.univ.filter fun e => (si (ix2 e (0 : Fin 1))).toInt = (p.val : ℤ)

/-- The table row edge e reads: its start index, read signed and clamped into the table. -/
def rowOfEdge (gi : IVec S800000x1 32) (e : Fin 800000) : Fin 50000 :=
  ⟨min (gi (ix2 e (0 : Fin 1))).toInt.toNat (50000 - 1), by omega⟩

/-- A per-node value laid under 64 columns reads the node's value. -/
theorem over64_apply (d : Vec1 50000) (p : Fin 50000) (q : Fin 64) : over64 (F := Ideal) d (ix2 p q) = d (ix1 p) := by
  unfold over64
  refine (broadcastInDim_apply _ bcast_S50000x1_S50000x64_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact broadcastInDim_apply _ bcast_S50000_S50000x1_0 d (ix2 p (0 : Fin 1)) (ix1 p) (fun a => match a with
    | ⟨0, _⟩ => by show p.val = if (50000 : Nat) = 1 then 0 else p.val; rw [if_neg (by decide)])

/-- A per-node value laid under 128 columns reads the node's value. -/
theorem over128_apply (d : Vec1 50000) (p : Fin 50000) (q : Fin 128) : over128 (F := Ideal) d (ix2 p q) = d (ix1 p) := by
  unfold over128
  refine (broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact broadcastInDim_apply _ bcast_S50000_S50000x1_0 d (ix2 p (0 : Fin 1)) (ix1 p) (fun a => match a with
    | ⟨0, _⟩ => by show p.val = if (50000 : Nat) = 1 then 0 else p.val; rw [if_neg (by decide)])

/-- The 64-column accumulator the scatter starts from is zero everywhere. -/
theorem zero64_apply (j : S50000x64.Idx) : (val_main_v11 (F := Ideal) j : EReal) = 0 := by
  rw [val_main_v11_apply, val_main_cst_apply]
  exact Ideal.ofBits_zero_f32

/-- The 128-column accumulator the scatter starts from is zero everywhere. -/
theorem zero128_apply (j : S50000x128.Idx) : (val_main_v37 (F := Ideal) j : EReal) = 0 := by
  rw [val_main_v37_apply, val_main_cst_6_apply]
  exact Ideal.ofBits_zero_f32

/-- The 64-column row gather reads the clamped row of each edge. -/
theorem gather64_apply (h : Mat 50000 64) (gi : IVec S800000x1 32) (e : Fin 800000) (q : Fin 64) :
    Host.gather gather_S50000x64_S800000x1_S800000x64_1_0_n_n_0_1_164 h gi (ix2 e q) = h (ix2 (rowOfEdge gi e) q) :=
  GatherRows.gatherRows_apply (by decide) Facts₀.gather_S50000x64_S800000x1_S800000x64_1_0_n_n_0_1_164_wf h gi e q

/-- The 128-column row gather reads the clamped row of each edge. -/
theorem gather128_apply (h : Mat 50000 128) (gi : IVec S800000x1 32) (e : Fin 800000) (q : Fin 128) :
    Host.gather gather_S50000x128_S800000x1_S800000x128_1_0_n_n_0_1_1128 h gi (ix2 e q) = h (ix2 (rowOfEdge gi e) q) :=
  GatherRows.gatherRows_apply (by decide) Facts₀.gather_S50000x128_S800000x1_S800000x128_1_0_n_n_0_1_1128_wf h gi e q

/-- The 64-column scatter-add at node p, column q: the start value plus the updates of the edges arriving at p. -/
theorem scatter64_apply (x : FVec Ideal S50000x64 .f32) (si : IVec S800000x1 32) (u : FVec Ideal S800000x64 .f32)
    (p : Fin 50000) (q : Fin 64) :
    Host.scatterAdd (F := Ideal) scatter_S50000x64_S800000x1_S800000x64_1_0_0_1 x si u (ix2 p q)
      = x (ix2 p q) + ∑ e ∈ edgesInto si p, u (ix2 e q) :=
  ScatterRows.scatterAddRows_apply Facts₀.scatter_S50000x64_S800000x1_S800000x64_1_0_0_1_wf x si u p q

/-- The 128-column scatter-add at node p, column q. -/
theorem scatter128_apply (x : FVec Ideal S50000x128 .f32) (si : IVec S800000x1 32) (u : FVec Ideal S800000x128 .f32)
    (p : Fin 50000) (q : Fin 128) :
    Host.scatterAdd (F := Ideal) scatter_S50000x128_S800000x1_S800000x128_1_0_0_1 x si u (ix2 p q)
      = x (ix2 p q) + ∑ e ∈ edgesInto si p, u (ix2 e q) :=
  ScatterRows.scatterAddRows_apply Facts₀.scatter_S50000x128_S800000x1_S800000x128_1_0_0_1_wf x si u p q

/-- The host's 64-column mean aggregation is the abstract one over the arriving edges and their clamped rows. -/
theorem mean64_eq (h : Mat 50000 64) (gi si : IVec S800000x1 32) (d : Vec1 50000) :
    (mean64 (F := Ideal) h gi si (over64 (F := Ideal) d) : Mat 50000 64)
      = agg (edgesInto si) (rowOfEdge gi) (fun p => d (ix1 p)) h := by
  funext j
  obtain ⟨p, q, rfl⟩ := exists_ix2 j
  rw [agg_apply]
  show Ideal.div (Host.scatterAdd (F := Ideal) scatter_S50000x64_S800000x1_S800000x64_1_0_0_1 (val_main_v11 (F := Ideal)) si
      (Host.gather gather_S50000x64_S800000x1_S800000x64_1_0_n_n_0_1_164 h gi) (ix2 p q)) (over64 (F := Ideal) d (ix2 p q)) = _
  rw [over64_apply, scatter64_apply, zero64_apply, zero_add]
  refine congrArg (fun t => Ideal.div t (d (ix1 p))) ?_
  exact Finset.sum_congr rfl (fun e _ => gather64_apply h gi e q)

/-- The host's 128-column mean aggregation is the abstract one over the arriving edges and their clamped rows. -/
theorem mean128_eq (h : Mat 50000 128) (gi si : IVec S800000x1 32) (d : Vec1 50000) :
    (mean128 (F := Ideal) h gi si (over128 (F := Ideal) d) : Mat 50000 128)
      = agg (edgesInto si) (rowOfEdge gi) (fun p => d (ix1 p)) h := by
  funext j
  obtain ⟨p, q, rfl⟩ := exists_ix2 j
  rw [agg_apply]
  show Ideal.div (Host.scatterAdd (F := Ideal) scatter_S50000x128_S800000x1_S800000x128_1_0_0_1 (val_main_v37 (F := Ideal)) si
      (Host.gather gather_S50000x128_S800000x1_S800000x128_1_0_n_n_0_1_1128 h gi) (ix2 p q)) (over128 (F := Ideal) d (ix2 p q)) = _
  rw [over128_apply, scatter128_apply, zero128_apply, zero_add]
  refine congrArg (fun t => Ideal.div t (d (ix1 p))) ?_
  exact Finset.sum_congr rfl (fun e _ => gather128_apply h gi e q)

/-- At the ideal values an accumulating scatter reads, at each element, the start value plus the sum of the updates
    that land there. -/
theorem scatterAdd_ideal_apply {s si u : Shape} {w : Nat} {φ : FTy} (D : ScatterDims s si u) (x : FVec Ideal s φ)
    (idx : IVec si w) (upd : FVec Ideal u φ) (i : s.Idx) :
    Host.scatterAdd (F := Ideal) D x idx upd i
      = x i + ∑ j ∈ Finset.univ.filter (fun j => D.resultIdx? j idx = some i), upd j := rfl

/-- Scattering ones into zeros and taking the larger of the count and one gives, at each element, a real number that
    is at least one, hence not zero. -/
theorem count_max_one_divisor {s si u : Shape} {w : Nat} (D : ScatterDims s si u) (idx : IVec si w)
    (zf : FVec Ideal s .f32) (hzf : ∀ i, zf i = 0) (of : FVec Ideal u .f32) (hof : ∀ j, of j = 1)
    (one : FVec Ideal s .f32) (hone : ∀ i, one i = 1) (i : s.Idx) :
    ∃ r : ℝ, r ≠ 0 ∧ maximumf (Host.scatterAdd (F := Ideal) D zf idx of) one i = (r : EReal) := by
  refine ⟨max (((Finset.univ.filter (fun j => D.resultIdx? j idx = some i)).card : ℝ)) 1,
    ne_of_gt (lt_of_lt_of_le one_pos (le_max_right _ _)), ?_⟩
  rw [ValueIdx.maximumf_apply, scatterAdd_ideal_apply, hzf, hone, zero_add, Finset.sum_congr rfl (fun j _ => hof j),
    Cert.Lib.sum_one_ereal, ← EReal.coe_one]
  exact (EReal.coe_strictMono.monotone.map_max).symm

/-- The accumulator the count starts from is zero everywhere. -/
theorem zeroDeg_apply (i : S50000.Idx) : val_main_v15 (F := Ideal) i = 0 := by
  rw [val_main_v15_apply, val_main_cst_2_apply]
  exact Ideal.ofBits_zero_f32

/-- Every counted update is one. -/
theorem oneEdge_apply (j : S800000.Idx) : val_main_v14 (F := Ideal) j = 1 := by
  rw [val_main_v14_apply, val_main_cst_1_apply]
  exact Ideal.ofBits_one_f32

/-- The lower bound the count is compared with is one everywhere. -/
theorem oneDeg_apply (i : S50000.Idx) : val_main_v18 (F := Ideal) i = 1 := by
  rw [val_main_v18_apply, val_main_cst_3_apply]
  exact Ideal.ofBits_one_f32

/-- The float count of arriving edges, at least one, is a real number that is at least one: a divisor. -/
theorem degOnes_divisor (si : IVec S800000x1 32) : Divisor (fun p : Fin 50000 => degOnes (F := Ideal) si (ix1 p)) := by
  intro p
  show ∃ r : ℝ, r ≠ 0 ∧ maximumf (Host.scatterAdd (F := Ideal) scatter_S50000_S800000x1_S800000_n_0_0_1
    (val_main_v15 (F := Ideal)) si (val_main_v14 (F := Ideal))) (val_main_v18 (F := Ideal)) (ix1 p) = (r : EReal)
  exact count_max_one_divisor _ si _ zeroDeg_apply _ oneEdge_apply _ oneDeg_apply (ix1 p)

/-- Counting the arriving edges in wrapping 32-bit integers gives the same divisor as counting them in floats. -/
theorem degCount_eq (si : IVec S800000x1 32) : degCount (F := Ideal) si = degOnes (F := Ideal) si := by
  have hu : S800000.numel < 2 ^ 31 := by
    rw [show S800000.numel = 800000 from by simp [Shape.numel]]
    norm_num
  unfold degCount degOnes
  refine congrArg (fun t : FVec Ideal S50000 .f32 => (maximumf t (val_main_v18 (F := Ideal)) : FVec Ideal S50000 .f32)) ?_
  exact Cert.Lib.sitofp_scatter_ones scatter_S50000_S800000x1_S800000_n_0_0_1 si hu _
    (fun i => broadcastInDim_scalar_apply _ _ i) _ (fun j => broadcastInDim_scalar_apply _ _ j)
    _ zeroDeg_apply _ oneEdge_apply

end Cert.Sage

end
-- ==== Proof.RefValue.lean ====
/-
  The reference program's three layers as the layer function of LibSageSpec.

  Each layer of the reference is two matrix products added, a bias vector laid under every row and added, and (for the
  first two layers) the positive part.  Read at an entry (p, q) this is (mean·Wl + x·Wr)(p, q) + b q, then max with 0:
  the layer function applied to the aggregated input, the layer's own input, the two weight matrices and the bias as a
  one-row matrix.  The aggregated input stays an unopened array here.
-/
import proofs.«145741_j55937654063333_2_alg».proof.Proof.Gen.ReferenceIdeal.Read
import proofs.«145741_j55937654063333_2_alg».proof.Proof.LibSageSpec

noncomputable section

open scoped BigOperators

namespace Cert.Sage.Ref

open Cert.ReferenceIdeal Cert.ReferenceIdeal.Gen Cert.ReferenceIdeal.Read Idealize.ShloMosaic Idealize.ShloMosaic.TcCoe
open Idealize.ShloMosaic.ValueIdx Cert.Sage

/-- The float maximum on the extended reals is the order's maximum. -/
theorem maximumf_max (a b : EReal) : FloatOps.maximumf (F := Ideal) (φ := .f32) a b = max a b := rfl
/-- The float sum on the extended reals is the sum. -/
theorem addf_add (a b : EReal) : FloatOps.addf (F := Ideal) (φ := .f32) a b = a + b := rfl
/-- The zero word is zero. -/
theorem zero_word : FloatOps.ofBits (F := Ideal) .f32 0x00000000#32 = (0 : EReal) := Ideal.ofBits_zero_f32

theorem l23_ix (p : Fin 50000) (q : Fin 128) (k : Fin 64) : lidx_main_v23 (ix2 p q) k = ix2 p k :=
  funext fun a => match a with | ⟨0, _⟩ => rfl | ⟨1, _⟩ => rfl
theorem r23_ix (p : Fin 50000) (q : Fin 128) (k : Fin 64) : ridx_main_v23 (ix2 p q) k = ix2 k q :=
  funext fun a => match a with | ⟨0, _⟩ => rfl | ⟨1, _⟩ => rfl
theorem l24_ix (p : Fin 50000) (q : Fin 128) (k : Fin 64) : lidx_main_v24 (ix2 p q) k = ix2 p k :=
  funext fun a => match a with | ⟨0, _⟩ => rfl | ⟨1, _⟩ => rfl
theorem r24_ix (p : Fin 50000) (q : Fin 128) (k : Fin 64) : ridx_main_v24 (ix2 p q) k = ix2 k q :=
  funext fun a => match a with | ⟨0, _⟩ => rfl | ⟨1, _⟩ => rfl
theorem b27_ix (p : Fin 50000) (q : Fin 128) : idx_main_v26 (idx_main_v27 (ix2 p q)) = ix1 q :=
  funext fun a => match a with | ⟨0, _⟩ => rfl

theorem l49_ix (p : Fin 50000) (q : Fin 128) (k : Fin 128) : lidx_main_v49 (ix2 p q) k = ix2 p k :=
  funext fun a => match a with | ⟨0, _⟩ => rfl | ⟨1, _⟩ => rfl
theorem r49_ix (p : Fin 50000) (q : Fin 128) (k : Fin 128) : ridx_main_v49 (ix2 p q) k = ix2 k q :=
  funext fun a => match a with | ⟨0, _⟩ => rfl | ⟨1, _⟩ => rfl
theorem l50_ix (p : Fin 50000) (q : Fin 128) (k : Fin 128) : lidx_main_v50 (ix2 p q) k = ix2 p k :=
  funext fun a => match a with | ⟨0, _⟩ => rfl | ⟨1, _⟩ => rfl
theorem r50_ix (p : Fin 50000) (q : Fin 128) (k : Fin 128) : ridx_main_v50 (ix2 p q) k = ix2 k q :=
  funext fun a => match a with | ⟨0, _⟩ => rfl | ⟨1, _⟩ => rfl
theorem b53_ix (p : Fin 50000) (q : Fin 128) : idx_main_v52 (idx_main_v53 (ix2 p q)) = ix1 q :=
  funext fun a => match a with | ⟨0, _⟩ => rfl

theorem l75_ix (p : Fin 50000) (q : Fin 64) (k : Fin 128) : lidx_main_v75 (ix2 p q) k = ix2 p k :=
  funext fun a => match a with | ⟨0, _⟩ => rfl | ⟨1, _⟩ => rfl
theorem r75_ix (p : Fin 50000) (q : Fin 64) (k : Fin 128) : ridx_main_v75 (ix2 p q) k = ix2 k q :=
  funext fun a => match a with | ⟨0, _⟩ => rfl | ⟨1, _⟩ => rfl
theorem l76_ix (p : Fin 50000) (q : Fin 64) (k : Fin 128) : lidx_main_v76 (ix2 p q) k = ix2 p k :=
  funext fun a => match a with | ⟨0, _⟩ => rfl | ⟨1, _⟩ => rfl
theorem r76_ix (p : Fin 50000) (q : Fin 64) (k : Fin 128) : ridx_main_v76 (ix2 p q) k = ix2 k q :=
  funext fun a => match a with | ⟨0, _⟩ => rfl | ⟨1, _⟩ => rfl
theorem b79_ix (p : Fin 50000) (q : Fin 64) : idx_main_v78 (idx_main_v79 (ix2 p q)) = ix1 q :=
  funext fun a => match a with | ⟨0, _⟩ => rfl

/-- Layer 1 of the reference, for any aggregated input `mean`: the positive part of the layer function. -/
theorem layer1_of (mean : Mat 50000 64) (x0 : Mat 50000 64) (x3 x4 : Mat 64 128) (x5 : Vec1 128) (p : Fin 50000) (q : Fin 128) :
    FloatOps.maximumf (F := Ideal) (φ := .f32)
      (FloatOps.addf (F := Ideal) (φ := .f32) (FloatOps.addf (F := Ideal) (φ := .f32)
        (∑ k : Fin 64, mean (lidx_main_v23 (ix2 p q) k) * x3 (ridx_main_v23 (ix2 p q) k))
        (∑ k : Fin 64, x0 (lidx_main_v24 (ix2 p q) k) * x4 (ridx_main_v24 (ix2 p q) k)))
        (x5 (idx_main_v26 (idx_main_v27 (ix2 p q)))))
      (FloatOps.ofBits (F := Ideal) .f32 0x00000000#32)
      = relu (layer mean x0 x3 x4 (rowOf x5)) (ix2 p q) := by
  rw [relu_apply, layer_apply, rowOf_apply, maximumf_max, addf_add, addf_add, zero_word, b27_ix]
  simp only [l23_ix, r23_ix, l24_ix, r24_ix]
  rfl

/-- Layer 2 of the reference, for any aggregated input and any layer input. -/
theorem layer2_of (mean h : Mat 50000 128) (x6 x7 : Mat 128 128) (x8 : Vec1 128) (p : Fin 50000) (q : Fin 128) :
    FloatOps.maximumf (F := Ideal) (φ := .f32)
      (FloatOps.addf (F := Ideal) (φ := .f32) (FloatOps.addf (F := Ideal) (φ := .f32)
        (∑ k : Fin 128, mean (lidx_main_v49 (ix2 p q) k) * x6 (ridx_main_v49 (ix2 p q) k))
        (∑ k : Fin 128, h (lidx_main_v50 (ix2 p q) k) * x7 (ridx_main_v50 (ix2 p q) k)))
        (x8 (idx_main_v52 (idx_main_v53 (ix2 p q)))))
      (FloatOps.ofBits (F := Ideal) .f32 0x00000000#32)
      = relu (layer mean h x6 x7 (rowOf x8)) (ix2 p q) := by
  rw [relu_apply, layer_apply, rowOf_apply, maximumf_max, addf_add, addf_add, zero_word, b53_ix]
  simp only [l49_ix, r49_ix, l50_ix, r50_ix]
  rfl

/-- Layer 3 of the reference (no activation), for any aggregated input and any layer input. -/
theorem layer3_of (mean h : Mat 50000 128) (x9 x10 : Mat 128 64) (x11 : Vec1 64) (p : Fin 50000) (q : Fin 64) :
    FloatOps.addf (F := Ideal) (φ := .f32) (FloatOps.addf (F := Ideal) (φ := .f32)
        (∑ k : Fin 128, mean (lidx_main_v75 (ix2 p q) k) * x9 (ridx_main_v75 (ix2 p q) k))
        (∑ k : Fin 128, h (lidx_main_v76 (ix2 p q) k) * x10 (ridx_main_v76 (ix2 p q) k)))
        (x11 (idx_main_v78 (idx_main_v79 (ix2 p q))))
      = layer mean h x9 x10 (rowOf x11) (ix2 p q) := by
  rw [layer_apply, rowOf_apply, addf_add, addf_add, b79_ix]
  simp only [l75_ix, r75_ix, l76_ix, r76_ix]
  rfl

/-- The reference's first hidden array. -/
theorem ref_h1 (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S64x128, .f32⟩ : BufTy).Contents (Elt Ideal)) (x5 : (⟨S128, .f32⟩ : BufTy).Contents (Elt Ideal)) :
    (val_main_v29 (F := Ideal) x0 x1 x3 x4 x5 : Mat 50000 128)
      = relu (layer (val_main_v22 (F := Ideal) x0 x1) x0 x3 x4 (rowOf x5)) := by
  funext j
  obtain ⟨p, q, rfl⟩ : ∃ (p : Fin 50000) (q : Fin 128), j = ix2 p q := ⟨j 0, j 1, eq_ix2 j⟩
  rw [val_main_v29_apply, val_main_v28_apply, val_main_v25_apply, val_main_v23_apply, val_main_v24_apply,
    val_main_v27_apply, val_main_v26_apply, val_main_call0_v0_apply, val_main_call0_cst_apply]
  generalize val_main_v22 (F := Ideal) x0 x1 = mean
  exact layer1_of mean x0 x3 x4 x5 p q

/-- The reference's second hidden array. -/
theorem ref_h2 (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) :
    (val_main_v55 (F := Ideal) x0 x1 x3 x4 x5 x6 x7 x8 : Mat 50000 128)
      = relu (layer (val_main_v48 (F := Ideal) x0 x1 x3 x4 x5) (val_main_v29 (F := Ideal) x0 x1 x3 x4 x5) x6 x7 (rowOf x8)) := by
  funext j
  obtain ⟨p, q, rfl⟩ : ∃ (p : Fin 50000) (q : Fin 128), j = ix2 p q := ⟨j 0, j 1, eq_ix2 j⟩
  rw [val_main_v55_apply, val_main_v54_apply, val_main_v51_apply, val_main_v49_apply, val_main_v50_apply,
    val_main_v53_apply, val_main_v52_apply, val_main_call1_v0_apply, val_main_call1_cst_apply]
  generalize val_main_v48 (F := Ideal) x0 x1 x3 x4 x5 = mean
  generalize val_main_v29 (F := Ideal) x0 x1 x3 x4 x5 = h
  exact layer2_of mean h x6 x7 x8 p q

/-- The reference's output embedding. -/
theorem ref_z (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S128x64, .f32⟩ : BufTy).Contents (Elt Ideal)) (x11 : (⟨S64, .f32⟩ : BufTy).Contents (Elt Ideal)) :
    (val_main_v80 (F := Ideal) x0 x1 x3 x4 x5 x6 x7 x8 x9 x10 x11 : Mat 50000 64)
      = layer (val_main_v74 (F := Ideal) x0 x1 x3 x4 x5 x6 x7 x8) (val_main_v55 (F := Ideal) x0 x1 x3 x4 x5 x6 x7 x8) x9 x10 (rowOf x11) := by
  funext j
  obtain ⟨p, q, rfl⟩ : ∃ (p : Fin 50000) (q : Fin 64), j = ix2 p q := ⟨j 0, j 1, eq_ix2 j⟩
  rw [val_main_v80_apply, val_main_v77_apply, val_main_v75_apply, val_main_v76_apply,
    val_main_v79_apply, val_main_v78_apply]
  generalize val_main_v74 (F := Ideal) x0 x1 x3 x4 x5 x6 x7 x8 = mean
  generalize val_main_v55 (F := Ideal) x0 x1 x3 x4 x5 x6 x7 x8 = h
  exact layer3_of mean h x9 x10 x11 p q

end Cert.Sage.Ref

end
-- ==== Proof.SageBridge.lean ====
/-
  The two programs' output embeddings are one array.

  Both programs compute two hidden layers h1, h2 the same way from the same aggregated inputs; they differ in the last
  layer.  The reference aggregates the 128 columns of h2 and multiplies the mean by Wl3; the kernel multiplies h2 by Wl3
  first and aggregates the 64 columns of the product.  Aggregation sums rows over a node's arriving edges and divides by
  a nonzero real; with every entry real it commutes with the right multiplication (distributivity and a swap of two
  finite sums), and the two remaining summands are added in the other order.  The entries are real because the inputs
  are and every step (gathering rows, summing, dividing by a nonzero real, products, sums, a maximum with zero) keeps
  real entries real.
-/
import proofs.«145741_j55937654063333_2_alg».proof.Proof.SageNet
import proofs.«145741_j55937654063333_2_alg».proof.Proof.LibSageAlgebra
import proofs.«145741_j55937654063333_2_alg».proof.Proof.SageOpen
import proofs.«145741_j55937654063333_2_alg».proof.Proof.RefValue

noncomputable section

namespace Cert.Sage

open Cert.ReferenceIdeal Cert.ReferenceIdeal.Gen Cert.ReferenceIdeal.Read Idealize.ShloMosaic Idealize.ShloMosaic.TcCoe
open Idealize.ShloMosaic.ValueIdx

section
variable {a0 : Mat 50000 64} {gi si : IVec S800000x1 32} {d : Vec1 50000}
  {a3 a4 : Mat 64 128} {a5 : Vec1 128} {a6 a7 : Mat 128 128} {a8 : Vec1 128} {a9 a10 : Mat 128 64} {a11 : Vec1 64}

theorem hid1_real (hd : Divisor fun p : Fin 50000 => d (ix1 p)) (h0 : IsReal a0) (h3 : IsReal a3) (h4 : IsReal a4) (h5 : IsReal a5) :
    IsReal (hid1 a0 gi si d a3 a4 a5) := by
  unfold hid1
  rw [mean64_eq]
  exact relu_real (layer_real (agg_real h0 hd) h0 h3 h4 (rowOf_real h5))

theorem hid2_real (hd : Divisor fun p : Fin 50000 => d (ix1 p)) (h0 : IsReal a0) (h3 : IsReal a3) (h4 : IsReal a4) (h5 : IsReal a5)
    (h6 : IsReal a6) (h7 : IsReal a7) (h8 : IsReal a8) : IsReal (hid2 a0 gi si d a3 a4 a5 a6 a7 a8) := by
  have h1 := hid1_real (gi := gi) (si := si) hd h0 h3 h4 h5
  unfold hid2
  rw [mean128_eq]
  exact relu_real (layer_real (agg_real h1 hd) h1 h6 h7 (rowOf_real h8))

/-- Projecting before aggregating gives the reference's last layer. -/
theorem out_eq (hd : Divisor fun p : Fin 50000 => d (ix1 p)) (h0 : IsReal a0) (h3 : IsReal a3) (h4 : IsReal a4) (h5 : IsReal a5)
    (h6 : IsReal a6) (h7 : IsReal a7) (h8 : IsReal a8) (h9 : IsReal a9) :
    outProjFirst a0 gi si d a3 a4 a5 a6 a7 a8 a9 a10 a11 = outAggFirst a0 gi si d a3 a4 a5 a6 a7 a8 a9 a10 a11 := by
  have h2 := hid2_real (gi := gi) (si := si) hd h0 h3 h4 h5 h6 h7 h8
  unfold outProjFirst outAggFirst
  generalize hid2 a0 gi si d a3 a4 a5 a6 a7 a8 = h at h2 ⊢
  rw [mean64_eq, mean128_eq]
  exact layerLast_agg h2 h9 hd

end

/-- The reference's output embedding is the aggregate-first form on its own edge and divisor arrays. -/
theorem ref_out (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S128x64, .f32⟩ : BufTy).Contents (Elt Ideal)) (x11 : (⟨S64, .f32⟩ : BufTy).Contents (Elt Ideal)) :
    (val_main_v80 (F := Ideal) x0 x1 x3 x4 x5 x6 x7 x8 x9 x10 x11 : Mat 50000 64)
      = outAggFirst x0 (gidx (val_main_v1 (F := Ideal) x1)) (sidx (val_main_v3 (F := Ideal) x1))
          (degOnes (F := Ideal) (sidx (val_main_v3 (F := Ideal) x1))) x3 x4 x5 x6 x7 x8 x9 x10 x11 := by
  have e1 : (val_main_v29 (F := Ideal) x0 x1 x3 x4 x5 : Mat 50000 128)
      = hid1 x0 (gidx (val_main_v1 (F := Ideal) x1)) (sidx (val_main_v3 (F := Ideal) x1))
          (degOnes (F := Ideal) (sidx (val_main_v3 (F := Ideal) x1))) x3 x4 x5 := by
    rw [Ref.ref_h1, ref_mean1]; rfl
  have e2 : (val_main_v55 (F := Ideal) x0 x1 x3 x4 x5 x6 x7 x8 : Mat 50000 128)
      = hid2 x0 (gidx (val_main_v1 (F := Ideal) x1)) (sidx (val_main_v3 (F := Ideal) x1))
          (degOnes (F := Ideal) (sidx (val_main_v3 (F := Ideal) x1))) x3 x4 x5 x6 x7 x8 := by
    rw [Ref.ref_h2, ref_mean2, e1]; rfl
  rw [Ref.ref_z, ref_mean3, e2]; rfl

end Cert.Sage

end
-- ==== Proof.SagePre.lean ====
/-
  From the precondition to real inputs. The precondition computes, for each of the ten float
  arguments, the conjunction over all entries of |x| < +∞, and conjoins the ten bits. If the
  result is 1 then each of the ten conjunctions is 1, hence every entry x of every float
  argument satisfies max x (-x) < ⊤ in the extended reals, and such an x is a coerced real.
-/
import proofs.«145741_j55937654063333_2_alg».proof.Pre_finite_inputs
import Idealize.ShloMosaic.Lib.ReduceAll
import Idealize.ShloMosaic.Lib.ValueIdx
import Idealize.ShloMosaic.PureOps.Ideal

noncomputable section

namespace Cert.Sage

open Idealize.ShloMosaic Cert.Pre_finite_inputs

/-- The rank-0 shape has one index. -/
instance : Subsingleton S_.Idx := ⟨fun a b => funext fun d => d.elim0⟩

/-- An extended real whose absolute value max x (-x) lies below +∞ is a coerced real. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞ at f32. -/
theorem ofBits_inf : Ideal.ofBits .f32 0x7F800000#32 = ⊤ := by simp [Ideal.ofBits, Ideal.ieee]

/-- One entry: if the comparison |a j| < +∞ (against the broadcast constant) gives the bit 1, then a j is a real. -/
theorem elem_real {s : Shape} (hb : S_.BroadcastsInDim s (![] : Fin 0 → Fin s.rank)) (a : FVec Ideal s .f32) (j : s.Idx)
    (h : cmpf .olt (Host.absf a) (broadcastInDim s ![] hb (constant (F := Ideal) S_ .f32 0x7F800000#32)) j = 1#1) :
    ∃ r : ℝ, a j = (r : EReal) := by
  have h' : Ideal.cmp .olt (max (a j : EReal) (-(a j : EReal))) (Ideal.ofBits .f32 0x7F800000#32) = 1#1 := h
  rw [ofBits_inf] at h'
  unfold Ideal.cmp at h'
  by_cases hlt : max (a j : EReal) (-(a j : EReal)) < ⊤
  · exact real_of_abs_lt_top _ hlt
  · simp [hlt] at h'

/-- All entries: if the conjunction over all axes of the comparisons is 1, every entry is a real. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (h : Host.reduce IntOp.andi (cmpf .olt (Host.absf a) (broadcastInDim s ![] hb (constant (F := Ideal) S_ .f32 0x7F800000#32)))
      init hr hu ValueIdx.ix0 = 1#1) (j : s.Idx) : ∃ r : ℝ, a j = (r : EReal) :=
  elem_real hb a j (Host.reduce_andi_all _ init hr hu ValueIdx.ix0 h j)

theorem pre_real [Cert.Pre_finite_inputs.Facts]
    (a0 : FVec Ideal S50000x64 .f32) (a1 : IVec S2x800000 32) (a2 : IVec S2x200000 32) (a3 a4 : FVec Ideal S64x128 .f32) (a5 : FVec Ideal S128 .f32) (a6 a7 : FVec Ideal S128x128 .f32) (a8 : FVec Ideal S128 .f32) (a9 a10 : FVec Ideal S128x64 .f32) (a11 : FVec Ideal S64 .f32)
    (h : Cert.Pre_finite_inputs.fn (F := Ideal) a0 a1 a2 a3 a4 a5 a6 a7 a8 a9 a10 a11 = fun _ => 1#1) :
    (∀ j, ∃ r : ℝ, a0 j = (r : EReal)) ∧ (∀ j, ∃ r : ℝ, a3 j = (r : EReal)) ∧ (∀ j, ∃ r : ℝ, a4 j = (r : EReal)) ∧ (∀ j, ∃ r : ℝ, a5 j = (r : EReal)) ∧ (∀ j, ∃ r : ℝ, a6 j = (r : EReal)) ∧ (∀ j, ∃ r : ℝ, a7 j = (r : EReal)) ∧ (∀ j, ∃ r : ℝ, a8 j = (r : EReal)) ∧ (∀ j, ∃ r : ℝ, a9 j = (r : EReal)) ∧ (∀ j, ∃ r : ℝ, a10 j = (r : EReal)) ∧ (∀ j, ∃ r : ℝ, a11 j = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h3⟩, h4⟩, h5⟩, h6⟩, h7⟩, h8⟩, h9⟩, h10⟩, h11⟩ := e
  exact ⟨all_real _ _ _ a0 _ h0, all_real _ _ _ a3 _ h3, all_real _ _ _ a4 _ h4, all_real _ _ _ a5 _ h5,
    all_real _ _ _ a6 _ h6, all_real _ _ _ a7 _ h7, all_real _ _ _ a8 _ h8, all_real _ _ _ a9 _ h9,
    all_real _ _ _ a10 _ h10, all_real _ _ _ a11 _ h11⟩

end Cert.Sage

end
-- ==== Proof.Final.lean ====
/-
  The kernel-side result is the reference's result term on the same launch arrays.

  The kernel-side program ends with the edge score of the project-first output embedding, with the degree counted in
  32-bit integers; the reference's term is the edge score of the aggregate-first embedding with the degree counted in
  floats.  Fewer than 2^31 edges make the two counts equal; finite inputs make every entry real, so the two embeddings
  are one array; the edge score is the same function applied to it.
-/
import proofs.«145741_j55937654063333_2_alg».proof.Proof.Chain
import proofs.«145741_j55937654063333_2_alg».proof.Proof.SageBridge
import proofs.«145741_j55937654063333_2_alg».proof.Proof.SageOpen
import proofs.«145741_j55937654063333_2_alg».proof.Proof.SagePre

noncomputable section

namespace Cert.KernelIdeal.ChainVal

open Cert.KernelIdeal Cert.KernelIdeal.Gen
open Idealize.ShloMosaic Idealize.ShloMosaic.TcCoe Idealize.SL.Sem
open Cert.Sage Cert.ReferenceIdeal.Read

variable (m : (ℓ : Loc nD τ sig) → Buf (Elt Ideal) ℓ) (ρ : Dev nD → PrngReg) (c : Dev nD)

theorem final [Cert.Pre_finite_inputs.Facts]
    (hpre : Cert.Pre_finite_inputs.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) = fun _ => 1#1) :
    W8 m ρ c (Proc.devRef .tc main_v76) = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  obtain ⟨h0, h3, h4, h5, h6, h7, h8, h9, h10, h11⟩ := Cert.Sage.pre_real _ _ _ _ _ _ _ _ _ _ _ _ hpre
  rw [result, ref_decode, ref_out]
  have hd : dK m c = degOnes (F := Ideal) (si m c) := degCount_eq _
  rw [hd, out_eq (degOnes_divisor _) h0 h3 h4 h5 h6 h7 h8 h9]

end Cert.KernelIdeal.ChainVal

end
-- ==== Proof.lean ====
/-
  The certificate of the three-layer mean-aggregation graph network: a Pallas implementation (four tiled kernels among
  stretches of gather / scatter-add host code) against the plain jnp reference.

  Frames: the two kernel programs' runs are the launch theorem over their eight segments; the reference's is its list
  of host operations read back.  The idealized kernel rewrote nothing, so it is the kernel's own text read on the
  extended reals.  Values: on the extended reals both programs score each label edge by the inner product of its two
  endpoint rows of an embedding z.  The programs build z differently only in the last layer — the kernel multiplies by
  the left weight matrix before the mean aggregation, the reference after — and in how the in-degree is counted
  (32-bit integers against floats).  With finite inputs every entry is a real number, the aggregation commutes with the
  right multiplication, and with fewer than 2^31 edges the two counts agree; so the results are equal entry by entry.
-/
import proofs.«145741_j55937654063333_2_alg».proof.Defs
import proofs.«145741_j55937654063333_2_alg».proof.Proof.Gen.Kernel
import proofs.«145741_j55937654063333_2_alg».proof.Proof.Gen.Kernel.Frame
import proofs.«145741_j55937654063333_2_alg».proof.Proof.Gen.KernelIdeal
import proofs.«145741_j55937654063333_2_alg».proof.Proof.Gen.KernelIdeal.Frame
import proofs.«145741_j55937654063333_2_alg».proof.Proof.Gen.ReferenceIdeal
import proofs.«145741_j55937654063333_2_alg».proof.Proof.Gen.Pre_finite_inputs
import proofs.«145741_j55937654063333_2_alg».proof.Proof.Gen.ReferenceIdeal.Run
import proofs.«145741_j55937654063333_2_alg».proof.Proof.Gen.ReferenceIdeal.Read
import proofs.«145741_j55937654063333_2_alg».proof.Proof.KRun
import proofs.«145741_j55937654063333_2_alg».proof.Proof.Final
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories agreeing on the arguments, both programs end with the same edge scores. -/
theorem algebraic : Cert.algebraic_KernelIdeal_ReferenceIdeal := by
  intro m ρ m' ρ' hpre hagree
  refine ⟨fun c => Cert.KernelIdeal.Gen.W8 m ρ c (Proc.devRef .tc Cert.KernelIdeal.main_v76),
    Cert.KernelIdeal.RunVal.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v100_eq, e0, e1, e2, e3, e4, e5, e6, e7, e8, e9, e10, e11]
  exact (Cert.KernelIdeal.ChainVal.final m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
